-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x2 .f32) (main_arg5 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 86
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x2, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x2, .f32⟩
  | .hbm, ⟨77, _⟩ => ⟨S3300000x1, .f32⟩
  | .hbm, ⟨78, _⟩ => ⟨S3300000x2, .f32⟩
  | .hbm, ⟨79, _⟩ => ⟨S3300000x2, .f32⟩
  | .hbm, ⟨80, _⟩ => ⟨S_, .f32⟩
  | .hbm, ⟨81, _⟩ => ⟨S100000x2, .f32⟩
  | .hbm, ⟨82, _⟩ => ⟨S3300000x1, .i32⟩
  | .hbm, ⟨83, _⟩ => ⟨S100000x2, .f32⟩
  | .hbm, ⟨84, _⟩ => ⟨S1x2, .f32⟩
  | .hbm, ⟨85, _⟩ => ⟨S100000x2, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x2, .f32⟩
  | 5 => ⟨S2, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x16, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000, .i32⟩
  | 72 => ⟨S3300000, .i32⟩
  | 73 => ⟨S3300000, .i32⟩
  | 74 => ⟨S_, .f32⟩
  | 75 => ⟨S3300000, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x2, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x2, .f32⟩
  | 119 => ⟨S3300000x1, .f32⟩
  | 120 => ⟨S3300000x2, .f32⟩
  | 121 => ⟨S3300000x2, .f32⟩
  | 122 => ⟨S_, .f32⟩
  | 123 => ⟨S100000x2, .f32⟩
  | 124 => ⟨S3300000x1, .i32⟩
  | 125 => ⟨S100000x2, .f32⟩
  | 126 => ⟨S1x2, .f32⟩
  | 127 => ⟨S100000x2, .f32⟩
  | _ => ⟨S100000x512, .f32⟩

abbrev hbmTy0_1 (i : Nat) : BufTy := match i % 128 with
  | 0 => ⟨S100000x2, .f32⟩
  | 1 => ⟨S100000x2, .f32⟩
  | 2 => ⟨S100000x2, .f32⟩
  | 3 => ⟨S_, .f32⟩
  | 4 => ⟨S100000x2, .f32⟩
  | 5 => ⟨S100000x2, .f32⟩
  | 6 => ⟨S_, .f32⟩
  | 7 => ⟨S100000x2, .f32⟩
  | 8 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_cst_23 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KRun.lean ====
/-
  The idealized kernel program's run, with its result: every weakly fair execution of @main terminates, nothing
  faults, the six argument arrays end as launched, and the result array ends at the contents the last of the
  four kernel regions leaves in it — the last boundary of the fold of buffer contents through @main's stretches
  of host operations and kernel regions.
-/
import proofs.«124025_j30356828848616_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.Stages.lean ====
/-
  The mathematics both programs compute, as pure functions of arrays.

  A two-layer graph convolution over 100000 nodes.  The edge list gives 3200000 (source, target) pairs; a
  self loop is appended for every node, so there are 3300000 pairs.  With deg(v) the number of pairs whose
  target is v and dinv(v) = deg(v)^(-1/2) where deg(v) > 0 and 0 elsewhere, pair e has the weight
  norm(e) = dinv(source e) * dinv(target e).  One layer sends a node-feature matrix h to
      agg(v, :) = sum over the pairs e with target v of  h(source e, :) * norm(e),
  and the network is  sigmoid (agg (relu (agg (x W1) + b1) W2) + b2).
  Each stage below is the composition of array operations that both printed programs apply, so that the
  gather and the scatter-add are never opened: only the stages computed differently by the two programs
  (the two matrix products, and the two bias-and-activation steps) are compared index by index elsewhere.
-/
import proofs.«124025_j30356828848616_1_alg».proof.Proof.Gen.ReferenceIdeal

noncomputable section

namespace Cert.Gcn

open Idealize.ShloMosaic Cert.ReferenceIdeal Cert.ReferenceIdeal.Facts₀

variable {F : FTy → Type} [FloatOps F]

/-- Row `r` of the edge list as a vector of 3200000 node numbers. -/
def edgeRow (r : Nat) (hr : S2x3200000.Slices ![r, 0] S1x3200000)
    (e : (⟨S2x3200000, .i32⟩ : BufTy).Contents (Elt F)) : (⟨S3200000, .i32⟩ : BufTy).Contents (Elt F) :=
  shapeCast S3200000 (extractStridedSlice S1x3200000 ![r, 0] e hr) shapeCasts_S1x3200000_S3200000

/-- A vector of 3200000 node numbers followed by the self loops 0, 1, …, 99999. -/
def withLoops (a : (⟨S3200000, .i32⟩ : BufTy).Contents (Elt F)) : (⟨S3300000, .i32⟩ : BufTy).Contents (Elt F) :=
  concatenate S3300000 0 [⟨S3200000, a⟩, ⟨S100000, iotaInDim S100000 32 0⟩] concatenates_S3200000_S100000_S3300000_d0

/-- The sources of the 3300000 pairs. -/
def srcAll (e : (⟨S2x3200000, .i32⟩ : BufTy).Contents (Elt F)) : (⟨S3300000, .i32⟩ : BufTy).Contents (Elt F) :=
  withLoops (edgeRow 0 slices_S2x3200000_S1x3200000_0_0 e)

/-- The targets of the 3300000 pairs. -/
def dstAll (e : (⟨S2x3200000, .i32⟩ : BufTy).Contents (Elt F)) : (⟨S3300000, .i32⟩ : BufTy).Contents (Elt F) :=
  withLoops (edgeRow 1 slices_S2x3200000_S1x3200000_1_0 e)

/-- deg: for every node the number of pairs that end in it, as a sum of ones. -/
def degree (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- dinv: deg^(-1/2) where deg > 0, and 0 elsewhere. -/
def degInvSqrt (d : (⟨S3300000, .i32⟩ : BufTy).Contents (Elt F)) : (⟨S100000, .f32⟩ : BufTy).Contents (Elt F) :=
  select (cmpf .ogt (degree d) (broadcastInDim S100000 ![] bcast_S_S100000 (constant S_ .f32 0x00000000#32)))
    (Host.powf (degree d) (broadcastInDim S100000 ![] bcast_S_S100000 (constant S_ .f32 0xBF000000#32)))
    (broadcastInDim S100000 ![] bcast_S_S100000 (id (constant S_ .f32 0x00000000#32)))

/-- A list of node numbers as gather start indices: a negative number counts from the end. -/
def startIdx (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- norm: the weight of every pair, dinv at its source times dinv at its target. -/
def pairWeight (dinv : (⟨S100000, .f32⟩ : BufTy).Contents (Elt F)) (s d : (⟨S3300000, .i32⟩ : BufTy).Contents (Elt F)) :
    (⟨S3300000, .f32⟩ : BufTy).Contents (Elt F) :=
  mulf (Host.gather gather_S100000_S3300000x1_S3300000_n_0_n_n_0_1_1 dinv (startIdx s))
    (Host.gather gather_S100000_S3300000x1_S3300000_n_0_n_n_0_1_1 dinv (startIdx d))

/-- One aggregation over 16 feature columns: gather the source rows, scale by the pair weights, add into the target rows. -/
def aggregate16 (h : (⟨S100000x16, .f32⟩ : BufTy).Contents (Elt F)) (s d : (⟨S3300000, .i32⟩ : BufTy).Contents (Elt F))
    (nrm : (⟨S3300000, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 d)
    (mulf (Host.gather gather_S100000x16_S3300000x1_S3300000x16_1_0_n_n_0_1_116 h (startIdx s))
      (broadcastInDim S3300000x16 ![0, 1] bcast_S3300000x1_S3300000x16_0_1 (broadcastInDim S3300000x1 ![0] bcast_S3300000_S3300000x1_0 nrm)))

/-- The same aggregation over 2 feature columns. -/
def aggregate2 (h : (⟨S100000x2, .f32⟩ : BufTy).Contents (Elt F)) (s d : (⟨S3300000, .i32⟩ : BufTy).Contents (Elt F))
    (nrm : (⟨S3300000, .f32⟩ : BufTy).Contents (Elt F)) : (⟨S100000x2, .f32⟩ : BufTy).Contents (Elt F) :=
  Host.scatterAdd scatter_S100000x2_S3300000x1_S3300000x2_1_0_0_1
    (broadcastInDim S100000x2 ![] bcast_S_S100000x2 (constant S_ .f32 0x00000000#32))
    (broadcastInDim S3300000x1 ![0] bcast_S3300000_S3300000x1_0 d)
    (mulf (Host.gather gather_S100000x2_S3300000x1_S3300000x2_1_0_n_n_0_1_12 h (startIdx s))
      (broadcastInDim S3300000x2 ![0, 1] bcast_S3300000x1_S3300000x2_0_1 (broadcastInDim S3300000x1 ![0] bcast_S3300000_S3300000x1_0 nrm)))

/-- x W1. -/
def project16 (x : (⟨S100000x512, .f32⟩ : BufTy).Contents (Elt F)) (w : (⟨S512x16, .f32⟩ : BufTy).Contents (Elt F)) :
    (⟨S100000x16, .f32⟩ : BufTy).Contents (Elt F) :=
  Host.dotGeneral dot_S100000x512_S512x16_S100000x16_1_0_0_1_n_n none x w

/-- h W2. -/
def project2 (h : (⟨S100000x16, .f32⟩ : BufTy).Contents (Elt F)) (w : (⟨S16x2, .f32⟩ : BufTy).Contents (Elt F)) :
    (⟨S100000x2, .f32⟩ : BufTy).Contents (Elt F) :=
  Host.dotGeneral dot_S100000x16_S16x2_S100000x2_1_0_0_1_n_n none h w

/-- max (a + b, 0), the bias a one-row matrix added to every row. -/
def biasReluRow (a : (⟨S100000x16, .f32⟩ : BufTy).Contents (Elt F)) (b : (⟨S1x16, .f32⟩ : BufTy).Contents (Elt F)) :
    (⟨S100000x16, .f32⟩ : BufTy).Contents (Elt F) :=
  maximumf (addf a (broadcastInDim S100000x16 ![0, 1] bcast_S1x16_S100000x16_0_1 b))
    (broadcastInDim S100000x16 ![] bcast_S_S100000x16 (constant S_ .f32 0x00000000#32))

/-- max (a + b, 0), the bias a vector added to every row. -/
def biasRelu (a : (⟨S100000x16, .f32⟩ : BufTy).Contents (Elt F)) (b : (⟨S16, .f32⟩ : BufTy).Contents (Elt F)) :
    (⟨S100000x16, .f32⟩ : BufTy).Contents (Elt F) :=
  biasReluRow a (broadcastInDim S1x16 ![1] bcast_S16_S1x16_1 b)

/-- 1 / (1 + exp (-(a + b))), the bias a one-row matrix added to every row. -/
def biasSigmoidRow (a : (⟨S100000x2, .f32⟩ : BufTy).Contents (Elt F)) (b : (⟨S1x2, .f32⟩ : BufTy).Contents (Elt F)) :
    (⟨S100000x2, .f32⟩ : BufTy).Contents (Elt F) :=
  Host.divf (broadcastInDim S100000x2 ![] bcast_S_S100000x2 (constant S_ .f32 0x3F800000#32))
    (addf (broadcastInDim S100000x2 ![] bcast_S_S100000x2 (constant S_ .f32 0x3F800000#32))
      (Host.exp (Host.negf (addf a (broadcastInDim S100000x2 ![0, 1] bcast_S1x2_S100000x2_0_1 b)))))

/-- 1 / (1 + exp (-(a + b))), the bias a vector added to every row. -/
def biasSigmoid (a : (⟨S100000x2, .f32⟩ : BufTy).Contents (Elt F)) (b : (⟨S2, .f32⟩ : BufTy).Contents (Elt F)) :
    (⟨S100000x2, .f32⟩ : BufTy).Contents (Elt F) :=
  biasSigmoidRow a (broadcastInDim S1x2 ![1] bcast_S2_S1x2_1 b)

/-- The whole network as one function of the six arguments. -/
def gcn (x : (⟨S100000x512, .f32⟩ : BufTy).Contents (Elt F)) (e : (⟨S2x3200000, .i32⟩ : BufTy).Contents (Elt F))
    (w1 : (⟨S512x16, .f32⟩ : BufTy).Contents (Elt F)) (b1 : (⟨S16, .f32⟩ : BufTy).Contents (Elt F))
    (w2 : (⟨S16x2, .f32⟩ : BufTy).Contents (Elt F)) (b2 : (⟨S2, .f32⟩ : BufTy).Contents (Elt F)) :
    (⟨S100000x2, .f32⟩ : BufTy).Contents (Elt F) :=
  let s := srcAll e
  let d := dstAll e
  let nrm := pairWeight (degInvSqrt d) s d
  biasSigmoid (aggregate2 (project2 (biasRelu (aggregate16 (project16 x w1) s d nrm) b1) w2) s d nrm) b2

end Cert.Gcn

end
-- ==== Proof.Rd.lean ====
/-
  Reading a TensorCore buffer's contents out of a valuation of all the device's buffers.
-/
import Idealize.ShloMosaic.Lib.StableHlo.Run

noncomputable section

namespace Cert.Gcn

open Idealize.ShloMosaic

/-- The contents of TensorCore reference `r` in the valuation `W`. -/
def rd {τ : Topo} {sig : RefSig} {Val : EltTy → Type} (W : Valuation τ sig Val) (r : Ref sig .tc) :
    (Proc.devRef (τ := τ) .tc r).ty.Contents Val :=
  W (Proc.devRef .tc r)

end Cert.Gcn

end
-- ==== Proof.KHost.lean ====
/-
  The idealized kernel program's stretches of host operations between its four kernel regions.  From ANY buffer
  contents `W`, each stretch leaves in its result buffers the same stages of the network (`Cert.Gcn`) that the
  reference applies, of the contents of the buffers it reads, and leaves every buffer it does not write as it was.
  The kernel computes the pair lists, the degrees and the pair weights once, and reshapes each bias vector to one row.
-/
import proofs.«124025_j30356828848616_1_alg».proof.Proof.Gen.KernelIdeal.Launch
import proofs.«124025_j30356828848616_1_alg».proof.Proof.Stages
import proofs.«124025_j30356828848616_1_alg».proof.Proof.Rd
import Idealize.ShloMosaic.Lib.Pipeline.Frame

noncomputable section

namespace Cert.KernelIdeal.Hand

open Cert.KernelIdeal Cert.KernelIdeal.Gen Idealize.ShloMosaic Idealize.ShloMosaic.TcCoe Idealize.SL.Sem
open Cert.Gcn

variable {F : FTy → Type} [FloatOps F] (W : Valuation τ sig (Elt F))

/-! ## What each stretch writes, and that it keeps every other buffer -/

/-- The buffers `hostOps0` writes. -/
abbrev wH0 : List (Ref sig .tc) := [main_v0, main_v1, main_v2, main_v3, main_v4, main_v5, main_v6, main_cst, main_v7, main_cst_0, main_v8, main_v9, main_v10, main_cst_1, main_v11, main_v12, main_cst_2, main_v13, main_v14, main_cst_3]
theorem keepH0 {r : Ref sig .tc} (hr : r ∉ wH0) : rd (StableHlo.after hostOps0 W) r = rd W r :=
  StableHlo.after_of_writes_sub (W := wH0) hostOps0 W (by
    simp only [List.Forall]
    repeat' apply And.intro
    all_goals exact Finset.singleton_subset_iff.mpr (List.mem_toFinset.mpr (List.mem_map_of_mem (f := Proc.devRef (τ := τ) .tc) (by decide)))) hr

/-- The buffers `hostOps0_1` writes. -/
abbrev wH01 : List (Ref sig .tc) := [main_call0_v0, main_call0_v1, main_v15]
theorem keepH01 {r : Ref sig .tc} (hr : r ∉ wH01) : rd (StableHlo.after hostOps0_1 W) r = rd W r :=
  StableHlo.after_of_writes_sub (W := wH01) hostOps0_1 W (by
    simp only [List.Forall]
    repeat' apply And.intro
    all_goals exact Finset.singleton_subset_iff.mpr (List.mem_toFinset.mpr (List.mem_map_of_mem (f := Proc.devRef (τ := τ) .tc) (by decide)))) hr

/-- The buffers `hostOps0_2` writes. -/
abbrev wH02 : List (Ref sig .tc) := [main_c, main_v16, main_v17, main_c_4, main_v18, main_v19, main_v20, main_v21, main_v22, main_c_5, main_v23, main_v24, main_c_6, main_v25, main_v26, main_v27, main_v28, main_v29, main_v30]
theorem keepH02 {r : Ref sig .tc} (hr : r ∉ wH02) : rd (StableHlo.after hostOps0_2 W) r = rd W r :=
  StableHlo.after_of_writes_sub (W := wH02) hostOps0_2 W (by
    simp only [List.Forall]
    repeat' apply And.intro
    all_goals exact Finset.singleton_subset_iff.mpr (List.mem_toFinset.mpr (List.mem_map_of_mem (f := Proc.devRef (τ := τ) .tc) (by decide)))) hr

/-- The buffers `hostOps1` writes. -/
abbrev wH1 : List (Ref sig .tc) := [main_c_7, main_v32, main_v33, main_c_8, main_v34, main_v35, main_v36, main_v37, main_v38, main_v39, main_v40, main_v41, main_cst_9, main_v42, main_v43, main_v44, main_v45]
theorem keepH1 {r : Ref sig .tc} (hr : r ∉ wH1) : rd (StableHlo.after hostOps1 W) r = rd W r :=
  StableHlo.after_of_writes_sub (W := wH1) hostOps1 W (by
    simp only [List.Forall]
    repeat' apply And.intro
    all_goals exact Finset.singleton_subset_iff.mpr (List.mem_toFinset.mpr (List.mem_map_of_mem (f := Proc.devRef (τ := τ) .tc) (by decide)))) hr

/-- The buffers `hostOps3` writes. -/
abbrev wH3 : List (Ref sig .tc) := [main_c_10, main_v48, main_v49, main_c_11, main_v50, main_v51, main_v52, main_v53, main_v54, main_v55, main_v56, main_v57, main_cst_12, main_v58, main_v59, main_v60, main_v61]
theorem keepH3 {r : Ref sig .tc} (hr : r ∉ wH3) : rd (StableHlo.after hostOps3 W) r = rd W r :=
  StableHlo.after_of_writes_sub (W := wH3) hostOps3 W (by
    simp only [List.Forall]
    repeat' apply And.intro
    all_goals exact Finset.singleton_subset_iff.mpr (List.mem_toFinset.mpr (List.mem_map_of_mem (f := Proc.devRef (τ := τ) .tc) (by decide)))) hr

/-! ## What each stretch computes -/

set_option maxHeartbeats 2000000 in
theorem H0_v5 : rd (StableHlo.after hostOps0 W) main_v5 = srcAll (rd W main_arg1) := by
  unfold rd; after_results_simp; rfl
set_option maxHeartbeats 2000000 in
theorem H0_v6 : rd (StableHlo.after hostOps0 W) main_v6 = dstAll (rd W main_arg1) := by
  unfold rd; after_results_simp; rfl
set_option maxHeartbeats 2000000 in
/-- The first two stretches together: the inverse square roots of the degrees. -/
theorem H01_v15 : rd (StableHlo.after hostOps0_1 (StableHlo.after hostOps0 W)) main_v15 = degInvSqrt (dstAll (rd W main_arg1)) := by
  unfold rd; after_results_simp; rfl
set_option maxHeartbeats 2000000 in
theorem H02_v30 : rd (StableHlo.after hostOps0_2 W) main_v30 = pairWeight (rd W main_v15) (rd W main_v5) (rd W main_v6) := by
  unfold rd; after_results_simp; rfl
set_option maxHeartbeats 2000000 in
theorem H1_v44 : rd (StableHlo.after hostOps1 W) main_v44 = aggregate16 (rd W main_v31) (rd W main_v5) (rd W main_v6) (rd W main_v30) := by
  unfold rd; after_results_simp; rfl
set_option maxHeartbeats 2000000 in
theorem H1_v45 : rd (StableHlo.after hostOps1 W) main_v45 = shapeCast S1x16 (rd W main_arg3) Facts₀.shapeCasts_S16_S1x16 := by
  unfold rd; after_results_simp; rfl
set_option maxHeartbeats 2000000 in
theorem H3_v60 : rd (StableHlo.after hostOps3 W) main_v60 = aggregate2 (rd W main_v47) (rd W main_v5) (rd W main_v6) (rd W main_v30) := by
  unfold rd; after_results_simp; rfl
set_option maxHeartbeats 2000000 in
theorem H3_v61 : rd (StableHlo.after hostOps3 W) main_v61 = shapeCast S1x2 (rd W main_arg5) Facts₀.shapeCasts_S2_S1x2 := by
  unfold rd; after_results_simp; rfl

end Cert.KernelIdeal.Hand

end
-- ==== Proof.LibRowBias.lean ====
/-
  A bias vector laid out as a one-row matrix: reshaping a vector of length n to [1, n] and broadcasting it into
  [1, n] along the second axis are the same array, entry (0, q) being entry q of the vector.
-/
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

theorem shapeCast_row {α : Type} {n : Nat} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) (hn : n ≠ 1) :
    shapeCast ⟨2, ![1, n]⟩ b h = broadcastInDim ⟨2, ![1, n]⟩ (![1] : Fin 1 → Fin 2) h' b := by
  funext j
  obtain ⟨u, q, rfl⟩ : ∃ (u : Fin 1) (q : Fin n), j = ix2 u q := ⟨j 0, j 1, eq_ix2 j⟩
  rw [shapeCast_a_1a_apply]
  refine (broadcastInDim_apply _ h' b _ (ix1 q) fun a => ?_).symm
  match a with
  | ⟨0, _⟩ =>
    show q.val = if n = 1 then 0 else q.val
    rw [if_neg hn]

end Cert.Gcn

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibMatmulBlock.lean ====
/-
  A block of a matrix product is the product of a row block and a column block.  Read the left matrix
  through a map that shifts rows by a row offset and keeps the contracted axis, the right matrix through a
  map that keeps the contracted axis and shifts columns by a column offset: the product of the two blocks
  at (p, q) is the whole product at (row offset + p, column offset + q).  The maps are arbitrary functions
  between index types, constrained only by what they do to each coordinate, so a window's block embedding
  can be passed as it is.
-/
import proofs.«124025_j30356828848616_1_alg».proof.Proof.LibMatmul

noncomputable section

open scoped BigOperators

namespace Cert.LibMatmul

open Idealize.ShloMosaic Idealize.ShloMosaic.ValueIdx

/-- The product of a row block of `X` and a column block of `W`, at an index of the block, is the product of
    `X` and `W` at that index moved by the two offsets. -/
theorem MM_block {A K B a b : Nat} (X : (⟨2, ![A, K]⟩ : Shape).Idx → EReal) (W : (⟨2, ![K, B]⟩ : Shape).Idx → EReal)
    (eX : (⟨2, ![a, K]⟩ : Shape).Idx → (⟨2, ![A, K]⟩ : Shape).Idx)
    (eW : (⟨2, ![K, b]⟩ : Shape).Idx → (⟨2, ![K, B]⟩ : Shape).Idx)
    (eO : (⟨2, ![a, b]⟩ : Shape).Idx → (⟨2, ![A, B]⟩ : Shape).Idx)
    (r0 c0 : Nat)
    (hX0 : ∀ y, (eX y 0).val = r0 + (y 0).val) (hX1 : ∀ y, (eX y 1).val = (y 1).val)
    (hW0 : ∀ y, (eW y 0).val = (y 0).val) (hW1 : ∀ y, (eW y 1).val = c0 + (y 1).val)
    (hO0 : ∀ j, (eO j 0).val = r0 + (j 0).val) (hO1 : ∀ j, (eO j 1).val = c0 + (j 1).val)
    (j : (⟨2, ![a, b]⟩ : Shape).Idx) :
    MM (fun y => X (eX y)) (fun y => W (eW y)) j = MM X W (eO j) := by
  unfold MM
  refine Finset.sum_congr rfl fun k _ => ?_
  have e1 : eX (ix2 (j 0) k) = ix2 (eO j 0) k := by
    funext d; apply Fin.ext
    match d with
    | ⟨0, _⟩ => exact (hX0 _).trans (hO0 j).symm
    | ⟨1, _⟩ => exact hX1 _
  have e2 : eW (ix2 k (j 1)) = ix2 k (eO j 1) := by
    funext d; apply Fin.ext
    match d with
    | ⟨0, _⟩ => exact hW0 _
    | ⟨1, _⟩ => exact (hW1 _).trans (hO1 j).symm
  exact congrArg₂ (· * ·) (congrArg X e1) (congrArg W e2)

end Cert.LibMatmul

end
-- ==== Proof.Region0.lean ====
/-
  Region 0 (the first matrix product over 20 row blocks of 5000 rows): the output array after the region is the
  product of the whole [100000, 512] input array and the whole [512, 16] weight array.  Grid point t multiplies
  rows 5000 t … 5000 t + 4999 of the input by the weights into a zero accumulator, which is rows
  5000 t … 5000 t + 4999 of the whole product; the 20 blocks tile the 100000 rows.
-/
import proofs.«124025_j30356828848616_1_alg».proof.Proof.Stages
import proofs.«124025_j30356828848616_1_alg».proof.Proof.Gen.KernelIdeal.Frame
import proofs.«124025_j30356828848616_1_alg».proof.Proof.LibMatmulBlock
import Idealize.ShloMosaic.Lib.Pipeline.Value
import Idealize.ShloMosaic.PureOps.Ideal
import Idealize.ShloMosaic.PureOps.Ideal.Laws

noncomputable section
open Idealize.ShloMosaic Idealize.ShloMosaic.TcCoe Idealize.SL.Sem
open Idealize.ShloMosaic.Pipeline (Dat)

namespace Cert.KernelIdeal.Regions
open Cert.KernelIdeal Cert.KernelIdeal.Gen
open Cert.LibMatmul (MM)

variable (V : (c : Dev nD) → (b : Ref sig .tc) → Buf (Elt Ideal) ((c : Thread nD τ).loc b))

/-- The origin of a rank-2 rectangle, as a constant function. -/
theorem origin_r0 : (![0, 0] : Fin 2 → Nat) = fun _ => 0 := funext fun a => by fin_cases a <;> rfl

/-- The body's payload is the matrix product of its two loaded blocks: both narrowings are the identity on
    extended reals, and the matrix unit starts from the zero accumulator. -/
theorem pay0_eq (x0 : Vec Ideal S5000x512 .f32) (x1 : Vec Ideal S512x16 .f32) :
    k0_pay1 (F := Ideal) x0 x1 = MM x0 x1 := by
  unfold k0_pay1
  exact Cert.LibMatmul.matmul_zero_eq dot_S5000x512_S512x16_S5000x16_1_0_0_1_n_n rfl rfl rfl rfl rfl rfl none x0 x1

/-- The printed index maps, decided over the grid: the row-block index of the left operand's window and of
    the output's window is the grid point, every other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block of the output is some grid point's. -/
theorem idx_onto0 : ∀ (q0 : Fin 20), ∃ t : Fin cfg0.N, win0_2.index t = ![q0.val, 0] :=
  (by decide +kernel : ∀ (q0 : Fin 20), ∃ t : Fin grid0.N, win0_2.index t = ![q0.val, 0])

/-- What grid point `t` writes back is block `t` of the product of the two whole arrays. -/
theorem flushed0_eq (c : Dev nD) (t : Fin cfg0.N) :
    (dat0 (F := Ideal) V c).flushed 2 t
      = ((cfg0.win 2).blk t).view.read (Elt Ideal) (MM (V c main_arg0) (V c main_arg2)) := by
  show (cfg0.win 2).cut (grid0.coords t) ((dat0 V c).after 2 t) = _
  rw [after0_2]
  unfold out0_2
  rw [View.canon_unit_zero origin_r0]
  simp only [View.ld_unit_zero (S := S5000x512) origin_r0, View.ld_unit_zero (S := S512x16) origin_r0]
  rw [pay0_eq]
  obtain ⟨e0, e1, e2, e3, e4, e5⟩ := idx_facts0 t
  funext j
  exact Cert.LibMatmul.MM_block (A := 100000) (K := 512) (B := 16) (a := 5000) (b := 16)
    (V c main_arg0) (V c main_arg2)
    (fun y => ((cfg0.win 0).blk t).view.emb y) (fun y => ((cfg0.win 1).blk t).view.emb y)
    (fun y => ((cfg0.win 2).blk t).view.emb y)
    (win0_2.index t (0 : Fin 2) * 5000) 0
    (fun y => by show win0_0.index t (0 : Fin 2) * 5000 + 1 * (y 0).val = _; omega)
    (fun y => by show win0_0.index t (1 : Fin 2) * 512 + 1 * (y 1).val = _; omega)
    (fun y => by show win0_1.index t (0 : Fin 2) * 512 + 1 * (y 0).val = _; omega)
    (fun y => by show win0_1.index t (1 : Fin 2) * 16 + 1 * (y 1).val = _; omega)
    (fun y => by show win0_2.index t (0 : Fin 2) * 5000 + 1 * (y 0).val = _; omega)
    (fun y => by show win0_2.index t (1 : Fin 2) * 16 + 1 * (y 1).val = _; omega)
    j

/-- An index of the array is in grid point `t`'s block iff each coordinate is in the block's range on its
    axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- The twenty row blocks tile the 100000 rows: row `r` is in the block of grid point `r / 5000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array after the region is the product of the two whole input arrays, which is what the
    host's contraction over the same dimension numbers computes. -/
theorem region0_array (c : Dev nD) :
    (dat0 (F := Ideal) V c).arrAt 2 cfg0.N = Cert.Gcn.project16 (F := Ideal) (V c main_arg0) (V c main_arg2) := by
  rw [(dat0 (F := Ideal) V c).arrAt_eq_of_cover 2 (MM (V c main_arg0) (V c main_arg2))
    (fun t _ => flushed0_eq V c t) cover0]
  unfold Cert.Gcn.project16
  exact (Cert.LibMatmul.dotGeneral_eq Cert.ReferenceIdeal.dot_S100000x512_S512x16_S100000x16_1_0_0_1_n_n
    rfl rfl rfl rfl rfl rfl none _ (V c main_arg0) (V c main_arg2)).symm

end Cert.KernelIdeal.Regions
end
-- ==== Proof.Region1.lean ====
/-
  Region 1 (bias and rectifier over 20 row blocks of 5000 rows): the output array after the region is one
  whole-array function of the region-entry contents of its two input arrays.  Grid point t writes rows
  5000 t … 5000 t + 4999 (all 16 columns); at row p, column q of that block the body leaves
  max (agg (5000 t + p, q) + b (0, q), 0), which is the entry at (5000 t + p, q) of max (agg + row-broadcast b, 0);
  the 20 blocks tile the 100000 rows, so the array ends holding that function everywhere.
-/
import proofs.«124025_j30356828848616_1_alg».proof.Proof.Stages
import proofs.«124025_j30356828848616_1_alg».proof.Proof.Gen.KernelIdeal.Frame
import Idealize.ShloMosaic.Lib.Pipeline.Value
import Idealize.ShloMosaic.Lib.ValueLayout
import Idealize.ShloMosaic.PureOps.Ideal
import Idealize.ShloMosaic.PureOps.Ideal.Laws

noncomputable section
open Idealize.ShloMosaic Idealize.ShloMosaic.TcCoe Idealize.SL.Sem
open Idealize.ShloMosaic.Pipeline (Dat)

namespace Cert.KernelIdeal.Regions
open Cert.KernelIdeal Cert.KernelIdeal.Gen Idealize.ShloMosaic.ValueIdx

variable (V : (c : Dev nD) → (b : Ref sig .tc) → Buf (Elt Ideal) ((c : Thread nD τ).loc b))

theorem r1_hz : (![0, 0] : Fin 2 → Nat) = fun _ => 0 := funext fun a => by fin_cases a <;> rfl

/-- The body's result at row p, column q of a block: the larger of (block entry + bias entry) and zero. -/
theorem r1_pay_apply (x0 : Vec Ideal S5000x16 .f32) (x1 : Vec Ideal S1x16 .f32) (p : Fin 5000) (q : Fin 16) :
    k1_pay1 (F := Ideal) x0 x1 (ix2 p q) = max (x0 (ix2 p q) + x1 (ix2 (0 : Fin 1) q)) (Ideal.ofBits .f32 0x00000000#32) := by
  unfold k1_pay1
  simp only [shapeCast_self]
  rw [maximumf_apply, addf_apply, broadcast_apply, broadcastTo_1b_ab_apply]
  rfl

/-- The whole-array function at row r, column q. -/
theorem r1_rhs_apply (a : (⟨S100000x16, .f32⟩ : BufTy).Contents (Elt Ideal)) (b : (⟨S1x16, .f32⟩ : BufTy).Contents (Elt Ideal))
    (r : Fin 100000) (q : Fin 16) :
    Cert.Gcn.biasReluRow (F := Ideal) a b (ix2 r q) = max (a (ix2 r q) + b (ix2 (0 : Fin 1) q)) (Ideal.ofBits .f32 0x00000000#32) := by
  unfold Cert.Gcn.biasReluRow
  rw [maximumf_apply, addf_apply]
  rw [broadcastInDim_apply _ _ b (ix2 r q) (ix2 (0 : Fin 1) q) (fun ax => by
        match ax with
        | ⟨0, _⟩ => rfl
        | ⟨1, _⟩ => rfl)]
  rw [broadcastInDim_apply _ _ _ (ix2 r q) ix0 (fun ax => ax.elim0)]
  rw [constant_apply]

/-- The index maps over the 20 grid points: the output's block index is (t, 0), the first input moves with it,
    the bias row stays at block (0, 0). -/
theorem r1_idx_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What grid point t writes back is block t of the whole-array function of the two input arrays. -/
theorem r1_flushed_eq (c : Dev nD) (t : Fin cfg1.N) :
    (dat1 (F := Ideal) V c).flushed 2 t
      = ((cfg1.win 2).blk t).view.read (Elt Ideal) (Cert.Gcn.biasReluRow (F := Ideal) (V c main_v44) (V c main_v45)) := by
  show (cfg1.win 2).cut (grid1.coords t) ((dat1 V c).after 2 t) = _
  rw [after1_2]
  unfold out1_2
  rw [View.canon_unit_zero r1_hz]
  simp only [View.ld_unit_zero (S := S5000x16) r1_hz, View.ld_unit_zero (S := S1x16) r1_hz]
  obtain ⟨e0, e1, e2, e3, e4, e5⟩ := r1_idx_facts t
  have ht : t.val < 20 := lt_of_lt_of_eq t.isLt N_1
  funext j
  obtain ⟨p, q, rfl⟩ : ∃ (p : Fin 5000) (q : Fin 16), j = ix2 p q := ⟨j 0, j 1, eq_ix2 j⟩
  have hp : p.val < 5000 := p.isLt
  show k1_pay1 (F := Ideal) (iblk1 V c 0 t) (iblk1 V c 1 t) (ix2 p q)
      = Cert.Gcn.biasReluRow (F := Ideal) (V c main_v44) (V c main_v45) (((cfg1.win 2).blk t).view.emb (ix2 p q))
  have hemb : ((cfg1.win 2).blk t).view.emb (ix2 p q) = ix2 (⟨t.val * 5000 + p.val, by omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 16 + 1 * q.val = q.val; omega
  have h0 : (iblk1 V c 0 t : Vec Ideal S5000x16 .f32) (ix2 p q) = V c main_v44 (ix2 (⟨t.val * 5000 + p.val, by omega⟩ : Fin 100000) q) := by
    unfold iblk1
    rw [View.read_apply]
    show V c main_v44 _ = V c main_v44 _
    refine congrArg (V c main_v44) ?_
    funext a; apply Fin.ext
    match a with
    | ⟨0, _⟩ => show win1_0.index t (0 : Fin 2) * 5000 + 1 * p.val = t.val * 5000 + p.val; omega
    | ⟨1, _⟩ => show win1_0.index t (1 : Fin 2) * 16 + 1 * q.val = q.val; omega
  have h1 : (iblk1 V c 1 t : Vec Ideal S1x16 .f32) (ix2 (0 : Fin 1) q) = V c main_v45 (ix2 (0 : Fin 1) q) := by
    unfold iblk1
    rw [View.read_apply]
    show V c main_v45 _ = V c main_v45 _
    refine congrArg (V c main_v45) ?_
    funext a; apply Fin.ext
    match a with
    | ⟨0, _⟩ => show win1_1.index t (0 : Fin 2) * 1 + 1 * 0 = 0; omega
    | ⟨1, _⟩ => show win1_1.index t (1 : Fin 2) * 16 + 1 * q.val = q.val; omega
  rw [hemb, r1_rhs_apply]
  refine (r1_pay_apply _ _ p q).trans ?_
  rw [h0, h1]

/-- An index of the array lies in point t's block iff each coordinate lies in the block's range on its axis. -/
theorem r1_mem_blk (t : Fin cfg1.N) (i : S100000x16.Idx) :
    i ∈ ((cfg1.win 2).blk t).view.set ↔ ∀ a : Fin 2, win1_2.index t a * S5000x16.size a ≤ (i a).val
      ∧ (i a).val < win1_2.index t a * S5000x16.size a + S5000x16.size a := by
  show i ∈ ((View.whole main_v46).slice (win1_2.rect t)).set ↔ _
  rw [View.set_slice_whole, Rect.mem_set_unit]
  exact Iff.rfl

/-- The 20 blocks of 5000 rows tile the 100000 rows: row r lies in the block of point r / 5000. -/
theorem r1_cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  obtain ⟨t, htv⟩ : ∃ t : Fin cfg1.N, t.val = (i 0).val / 5000 := ⟨⟨(i 0).val / 5000, by rw [hN]; omega⟩, rfl⟩
  refine ⟨t, flush1_2 t, ?_⟩
  obtain ⟨e0, e1, e2, e3, e4, e5⟩ := r1_idx_facts t
  rw [r1_mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 16 ≤ (i 1).val ∧ (i 1).val < win1_2.index t (1 : Fin 2) * 16 + 16
    omega

/-- After the region the output array is max (agg + bias row, 0) of the region-entry contents of the two input arrays. -/
theorem region1_array (c : Dev nD) :
    (dat1 (F := Ideal) V c).arrAt 2 cfg1.N = Cert.Gcn.biasReluRow (F := Ideal) (V c main_v44) (V c main_v45) :=
  (dat1 (F := Ideal) V c).arrAt_eq_of_cover 2 (Cert.Gcn.biasReluRow (F := Ideal) (V c main_v44) (V c main_v45))
    (fun t _ => r1_flushed_eq V c t) r1_cover

end Cert.KernelIdeal.Regions
end
-- ==== Proof.Region2.lean ====
/-
  Region 2 (the second matrix product over 20 row blocks of 5000 rows): the output array after the region is the
  product of the whole [100000, 16] input array and the whole [16, 2] weight array.  Grid point t multiplies
  rows 5000 t … 5000 t + 4999 of the input by the weights into a zero accumulator, which is rows
  5000 t … 5000 t + 4999 of the whole product; the 20 blocks tile the 100000 rows.
-/
import proofs.«124025_j30356828848616_1_alg».proof.Proof.Stages
import proofs.«124025_j30356828848616_1_alg».proof.Proof.Gen.KernelIdeal.Frame
import proofs.«124025_j30356828848616_1_alg».proof.Proof.LibMatmulBlock
import Idealize.ShloMosaic.Lib.Pipeline.Value
import Idealize.ShloMosaic.PureOps.Ideal
import Idealize.ShloMosaic.PureOps.Ideal.Laws

noncomputable section
open Idealize.ShloMosaic Idealize.ShloMosaic.TcCoe Idealize.SL.Sem
open Idealize.ShloMosaic.Pipeline (Dat)

namespace Cert.KernelIdeal.Regions
open Cert.KernelIdeal Cert.KernelIdeal.Gen
open Cert.LibMatmul (MM)

variable (V : (c : Dev nD) → (b : Ref sig .tc) → Buf (Elt Ideal) ((c : Thread nD τ).loc b))

/-- The origin of a rank-2 rectangle, as a constant function. -/
theorem origin_r2 : (![0, 0] : Fin 2 → Nat) = fun _ => 0 := funext fun a => by fin_cases a <;> rfl

/-- The body's payload is the matrix product of its two loaded blocks: the shape cast is between equal
    shapes, both narrowings are the identity on extended reals, and the matrix unit starts from the zero
    accumulator. -/
theorem pay2_eq (x0 : Vec Ideal S5000x16 .f32) (x1 : Vec Ideal S16x2 .f32) :
    k2_pay1 (F := Ideal) x0 x1 = MM x0 x1 := by
  unfold k2_pay1
  simp only [shapeCast_self]
  exact Cert.LibMatmul.matmul_zero_eq dot_S5000x16_S16x2_S5000x2_1_0_0_1_n_n rfl rfl rfl rfl rfl rfl none x0 x1

/-- The printed index maps, decided over the grid: the row-block index of the left operand's window and of
    the output's window is the grid point, every other block index is zero. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every row block of the output is some grid point's. -/
theorem idx_onto2 : ∀ (q0 : Fin 20), ∃ t : Fin cfg2.N, win2_2.index t = ![q0.val, 0] :=
  (by decide +kernel : ∀ (q0 : Fin 20), ∃ t : Fin grid2.N, win2_2.index t = ![q0.val, 0])

/-- What grid point `t` writes back is block `t` of the product of the two whole arrays. -/
theorem flushed2_eq (c : Dev nD) (t : Fin cfg2.N) :
    (dat2 (F := Ideal) V c).flushed 2 t
      = ((cfg2.win 2).blk t).view.read (Elt Ideal) (MM (V c main_v46) (V c main_arg4)) := by
  show (cfg2.win 2).cut (grid2.coords t) ((dat2 V c).after 2 t) = _
  rw [after2_2]
  unfold out2_2
  rw [View.canon_unit_zero origin_r2]
  simp only [View.ld_unit_zero (S := S5000x16) origin_r2, View.ld_unit_zero (S := S16x2) origin_r2]
  rw [pay2_eq]
  obtain ⟨e0, e1, e2, e3, e4, e5⟩ := idx_facts2 t
  funext j
  exact Cert.LibMatmul.MM_block (A := 100000) (K := 16) (B := 2) (a := 5000) (b := 2)
    (V c main_v46) (V c main_arg4)
    (fun y => ((cfg2.win 0).blk t).view.emb y) (fun y => ((cfg2.win 1).blk t).view.emb y)
    (fun y => ((cfg2.win 2).blk t).view.emb y)
    (win2_2.index t (0 : Fin 2) * 5000) 0
    (fun y => by show win2_0.index t (0 : Fin 2) * 5000 + 1 * (y 0).val = _; omega)
    (fun y => by show win2_0.index t (1 : Fin 2) * 16 + 1 * (y 1).val = _; omega)
    (fun y => by show win2_1.index t (0 : Fin 2) * 16 + 1 * (y 0).val = _; omega)
    (fun y => by show win2_1.index t (1 : Fin 2) * 2 + 1 * (y 1).val = _; omega)
    (fun y => by show win2_2.index t (0 : Fin 2) * 5000 + 1 * (y 0).val = _; omega)
    (fun y => by show win2_2.index t (1 : Fin 2) * 2 + 1 * (y 1).val = _; omega)
    j

/-- An index of the array is in grid point `t`'s block iff each coordinate is in the block's range on its
    axis. -/
theorem mem_blk2 (t : Fin cfg2.N) (i : S100000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v47).slice (win2_2.rect t)).set ↔ _
  rw [View.set_slice_whole, Rect.mem_set_unit]
  exact Iff.rfl

/-- The twenty row blocks tile the 100000 rows: row `r` is in the block of grid point `r / 5000`. -/
theorem cover2 (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 2 ≤ (i 1).val ∧ (i 1).val < win2_2.index t (1 : Fin 2) * 2 + 2; omega

/-- The output array after the region is the product of the two whole input arrays, which is what the
    host's contraction over the same dimension numbers computes. -/
theorem region2_array (c : Dev nD) :
    (dat2 (F := Ideal) V c).arrAt 2 cfg2.N = Cert.Gcn.project2 (F := Ideal) (V c main_v46) (V c main_arg4) := by
  rw [(dat2 (F := Ideal) V c).arrAt_eq_of_cover 2 (MM (V c main_v46) (V c main_arg4))
    (fun t _ => flushed2_eq V c t) cover2]
  unfold Cert.Gcn.project2
  exact (Cert.LibMatmul.dotGeneral_eq Cert.ReferenceIdeal.dot_S100000x16_S16x2_S100000x2_1_0_0_1_n_n
    rfl rfl rfl rfl rfl rfl none _ (V c main_v46) (V c main_arg4)).symm

end Cert.KernelIdeal.Regions
end
-- ==== Proof.Region3.lean ====
/-
  Region 3 (bias and logistic function over 20 row blocks of 5000 rows): the output array after the region is one
  whole-array function of the region-entry contents of its two input arrays.  Grid point t writes rows
  5000 t … 5000 t + 4999 (both columns); at row p, column q of that block the body leaves
  logistic (agg (5000 t + p, q) + b (0, q)) with logistic x = 1 / (1 + exp (-x)), which is the entry at
  (5000 t + p, q) of 1 / (1 + exp (-(agg + row-broadcast b))); the 20 blocks tile the 100000 rows, so the array
  ends holding that function everywhere.
-/
import proofs.«124025_j30356828848616_1_alg».proof.Proof.Stages
import proofs.«124025_j30356828848616_1_alg».proof.Proof.Gen.KernelIdeal.Frame
import Idealize.ShloMosaic.Lib.Pipeline.Value
import Idealize.ShloMosaic.Lib.ValueLayout
import Idealize.ShloMosaic.PureOps.Ideal
import Idealize.ShloMosaic.PureOps.Ideal.Laws

noncomputable section
open Idealize.ShloMosaic Idealize.ShloMosaic.TcCoe Idealize.SL.Sem
open Idealize.ShloMosaic.Pipeline (Dat)

namespace Cert.KernelIdeal.Regions
open Cert.KernelIdeal Cert.KernelIdeal.Gen Idealize.ShloMosaic.ValueIdx

variable (V : (c : Dev nD) → (b : Ref sig .tc) → Buf (Elt Ideal) ((c : Thread nD τ).loc b))

theorem r3_hz : (![0, 0] : Fin 2 → Nat) = fun _ => 0 := funext fun a => by fin_cases a <;> rfl

/-- The float word 0x3F800000 is the number one. -/
theorem r3_one : Ideal.ofBits .f32 0x3F800000#32 = 1 := by
  simp [Ideal.ofBits, Ideal.ieee, -EReal.coe_mul]; norm_num

/-- The body's result at row p, column q of a block: the logistic function of (block entry + bias entry). -/
theorem r3_pay_apply (x0 : Vec Ideal S5000x2 .f32) (x1 : Vec Ideal S1x2 .f32) (p : Fin 5000) (q : Fin 2) :
    k3_pay1 (F := Ideal) x0 x1 (ix2 p q) = Ideal.logistic (x0 (ix2 p q) + x1 (ix2 (0 : Fin 1) q)) := by
  unfold k3_pay1
  simp only [shapeCast_self, logistic]
  rw [addf_apply, broadcastTo_1b_ab_apply]
  rfl

/-- The whole-array function at row r, column q: 1 / (1 + exp (-(a + b))) is the logistic function of a + b. -/
theorem r3_rhs_apply (a : (⟨S100000x2, .f32⟩ : BufTy).Contents (Elt Ideal)) (b : (⟨S1x2, .f32⟩ : BufTy).Contents (Elt Ideal))
    (r : Fin 100000) (q : Fin 2) :
    Cert.Gcn.biasSigmoidRow (F := Ideal) a b (ix2 r q) = Ideal.logistic (a (ix2 r q) + b (ix2 (0 : Fin 1) q)) := by
  unfold Cert.Gcn.biasSigmoidRow
  simp only [Host.divf, Host.exp, Host.negf, addf_apply]
  rw [broadcastInDim_apply _ _ b (ix2 r q) (ix2 (0 : Fin 1) q) (fun ax => by
        match ax with
        | ⟨0, _⟩ => rfl
        | ⟨1, _⟩ => rfl)]
  rw [broadcastInDim_apply _ _ _ (ix2 r q) ix0 (fun ax => ax.elim0)]
  rw [constant_apply, r3_one]
  rfl

/-- The index maps over the 20 grid points: the output's block index is (t, 0), the first input moves with it,
    the bias row stays at block (0, 0). -/
theorem r3_idx_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What grid point t writes back is block t of the whole-array function of the two input arrays. -/
theorem r3_flushed_eq (c : Dev nD) (t : Fin cfg3.N) :
    (dat3 (F := Ideal) V c).flushed 2 t
      = ((cfg3.win 2).blk t).view.read (Elt Ideal) (Cert.Gcn.biasSigmoidRow (F := Ideal) (V c main_v60) (V c main_v61)) := by
  show (cfg3.win 2).cut (grid3.coords t) ((dat3 V c).after 2 t) = _
  rw [after3_2]
  unfold out3_2
  rw [View.canon_unit_zero r3_hz]
  simp only [View.ld_unit_zero (S := S5000x2) r3_hz, View.ld_unit_zero (S := S1x2) r3_hz]
  obtain ⟨e0, e1, e2, e3, e4, e5⟩ := r3_idx_facts t
  have ht : t.val < 20 := lt_of_lt_of_eq t.isLt N_3
  funext j
  obtain ⟨p, q, rfl⟩ : ∃ (p : Fin 5000) (q : Fin 2), j = ix2 p q := ⟨j 0, j 1, eq_ix2 j⟩
  have hp : p.val < 5000 := p.isLt
  show k3_pay1 (F := Ideal) (iblk3 V c 0 t) (iblk3 V c 1 t) (ix2 p q)
      = Cert.Gcn.biasSigmoidRow (F := Ideal) (V c main_v60) (V c main_v61) (((cfg3.win 2).blk t).view.emb (ix2 p q))
  have hemb : ((cfg3.win 2).blk t).view.emb (ix2 p q) = ix2 (⟨t.val * 5000 + p.val, by omega⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 2 + 1 * q.val = q.val; omega
  have h0 : (iblk3 V c 0 t : Vec Ideal S5000x2 .f32) (ix2 p q) = V c main_v60 (ix2 (⟨t.val * 5000 + p.val, by omega⟩ : Fin 100000) q) := by
    unfold iblk3
    rw [View.read_apply]
    show V c main_v60 _ = V c main_v60 _
    refine congrArg (V c main_v60) ?_
    funext a; apply Fin.ext
    match a with
    | ⟨0, _⟩ => show win3_0.index t (0 : Fin 2) * 5000 + 1 * p.val = t.val * 5000 + p.val; omega
    | ⟨1, _⟩ => show win3_0.index t (1 : Fin 2) * 2 + 1 * q.val = q.val; omega
  have h1 : (iblk3 V c 1 t : Vec Ideal S1x2 .f32) (ix2 (0 : Fin 1) q) = V c main_v61 (ix2 (0 : Fin 1) q) := by
    unfold iblk3
    rw [View.read_apply]
    show V c main_v61 _ = V c main_v61 _
    refine congrArg (V c main_v61) ?_
    funext a; apply Fin.ext
    match a with
    | ⟨0, _⟩ => show win3_1.index t (0 : Fin 2) * 1 + 1 * 0 = 0; omega
    | ⟨1, _⟩ => show win3_1.index t (1 : Fin 2) * 2 + 1 * q.val = q.val; omega
  rw [hemb, r3_rhs_apply]
  refine (r3_pay_apply _ _ p q).trans ?_
  rw [h0, h1]

/-- An index of the array lies in point t's block iff each coordinate lies in the block's range on its axis. -/
theorem r3_mem_blk (t : Fin cfg3.N) (i : S100000x2.Idx) :
    i ∈ ((cfg3.win 2).blk t).view.set ↔ ∀ a : Fin 2, win3_2.index t a * S5000x2.size a ≤ (i a).val
      ∧ (i a).val < win3_2.index t a * S5000x2.size a + S5000x2.size a := by
  show i ∈ ((View.whole main_v62).slice (win3_2.rect t)).set ↔ _
  rw [View.set_slice_whole, Rect.mem_set_unit]
  exact Iff.rfl

/-- The 20 blocks of 5000 rows tile the 100000 rows: row r lies in the block of point r / 5000. -/
theorem r3_cover (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 20 := N_3
  obtain ⟨t, htv⟩ : ∃ t : Fin cfg3.N, t.val = (i 0).val / 5000 := ⟨⟨(i 0).val / 5000, by rw [hN]; omega⟩, rfl⟩
  refine ⟨t, flush3_2 t, ?_⟩
  obtain ⟨e0, e1, e2, e3, e4, e5⟩ := r3_idx_facts t
  rw [r3_mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 2 ≤ (i 1).val ∧ (i 1).val < win3_2.index t (1 : Fin 2) * 2 + 2
    omega

/-- After the region the output array is the logistic function of (agg + bias row) of the region-entry contents of the two input arrays. -/
theorem region3_array (c : Dev nD) :
    (dat3 (F := Ideal) V c).arrAt 2 cfg3.N = Cert.Gcn.biasSigmoidRow (F := Ideal) (V c main_v60) (V c main_v61) :=
  (dat3 (F := Ideal) V c).arrAt_eq_of_cover 2 (Cert.Gcn.biasSigmoidRow (F := Ideal) (V c main_v60) (V c main_v61))
    (fun t _ => r3_flushed_eq V c t) r3_cover

end Cert.KernelIdeal.Regions
end
-- ==== Proof.KValue.lean ====
/-
  The idealized kernel program's result as the network `Cert.Gcn.gcn` of the six arguments.  The buffer contents
  are followed through @main's stretches of host operations and its four kernel regions: a host stretch leaves
  one stage of the network in its result buffer; a region leaves in its output array one whole-array function of
  its two input arrays — the two matrix products and the two bias-and-activation steps, equal at the ideal values
  to the host operations the reference applies — and every buffer that is not one of its arrays as it was.
-/
import proofs.«124025_j30356828848616_1_alg».proof.Proof.KRun
import proofs.«124025_j30356828848616_1_alg».proof.Proof.KHost
import proofs.«124025_j30356828848616_1_alg».proof.Proof.LibRowBias
import proofs.«124025_j30356828848616_1_alg».proof.Proof.Region0
import proofs.«124025_j30356828848616_1_alg».proof.Proof.Region1
import proofs.«124025_j30356828848616_1_alg».proof.Proof.Region2
import proofs.«124025_j30356828848616_1_alg».proof.Proof.Region3

noncomputable section

namespace Cert.KernelIdeal.Hand

open Cert.KernelIdeal Cert.KernelIdeal.Gen Idealize.ShloMosaic Idealize.ShloMosaic.TcCoe Idealize.SL.Sem
open Cert.Gcn

variable (m : (ℓ : Loc nD τ sig) → Buf (Elt Ideal) ℓ) (ρ : Dev nD → PrngReg) (c : Dev nD)

/-! ## A region keeps every buffer that is not one of its three arrays -/

theorem arrs0 : ∀ w : Fin cfg0.W, Pipeline.arrRef spec0 w ∈ [main_arg0, main_arg2, main_v31] := by decide
theorem arrs1 : ∀ w : Fin cfg1.W, Pipeline.arrRef spec1 w ∈ [main_v44, main_v45, main_v46] := by decide
theorem arrs2 : ∀ w : Fin cfg2.W, Pipeline.arrRef spec2 w ∈ [main_v46, main_arg4, main_v47] := by decide

theorem keepR0 {r : Ref sig .tc} (hr : r ∉ [main_arg0, main_arg2, main_v31]) : rd (W4 m ρ c) r = rd (W3 m ρ c) r :=
  W4_of_ne m ρ c r (fun w e => hr (e ▸ arrs0 w))
theorem keepR1 {r : Ref sig .tc} (hr : r ∉ [main_v44, main_v45, main_v46]) : rd (W6 m ρ c) r = rd (W5 m ρ c) r :=
  W6_of_ne m ρ c r (fun w e => hr (e ▸ arrs1 w))
theorem keepR2 {r : Ref sig .tc} (hr : r ∉ [main_v46, main_arg4, main_v47]) : rd (W7 m ρ c) r = rd (W6 m ρ c) r :=
  W7_of_ne m ρ c r (fun w e => hr (e ▸ arrs2 w))

/-! ## What each region leaves in its output array -/

theorem R0_v31 : rd (W4 m ρ c) main_v31 = project16 (rd (W3 m ρ c) main_arg0) (rd (W3 m ρ c) main_arg2) :=
  (W4_arr m ρ c 2).trans (Cert.KernelIdeal.Regions.region0_array (V3 m ρ) c)
theorem R1_v46 : rd (W6 m ρ c) main_v46 = biasReluRow (rd (W5 m ρ c) main_v44) (rd (W5 m ρ c) main_v45) :=
  (W6_arr m ρ c 2).trans (Cert.KernelIdeal.Regions.region1_array (V5 m ρ) c)
theorem R2_v47 : rd (W7 m ρ c) main_v47 = project2 (rd (W6 m ρ c) main_v46) (rd (W6 m ρ c) main_arg4) :=
  (W7_arr m ρ c 2).trans (Cert.KernelIdeal.Regions.region2_array (V6 m ρ) c)
theorem R3_v62 : rd (W9 m ρ c) main_v62 = biasSigmoidRow (rd (W8 m ρ c) main_v60) (rd (W8 m ρ c) main_v61) :=
  (W9_arr m ρ c 2).trans (Cert.KernelIdeal.Regions.region3_array (V8 m ρ) c)

/-! ## The result -/

set_option maxHeartbeats 2000000 in
/-- The result array after the run is the network of the six arguments as launched. -/
theorem result_value : W9 m ρ c (Proc.devRef .tc main_v62)
    = gcn (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  show rd (W9 m ρ c) main_v62 = _
  rw [R3_v62]
  simp (disch := decide) only [W8, W5, W3, W2, W1, H3_v60, H3_v61, keepH3, R2_v47, keepR2, R1_v46, keepR1, H1_v44, H1_v45, keepH1,
    R0_v31, keepR0, H02_v30, keepH02, H01_v15, keepH01, H0_v5, H0_v6, keepH0]
  rw [shapeCast_row _ _ Cert.ReferenceIdeal.Facts₀.bcast_S16_S1x16_1 (by decide),
    shapeCast_row _ _ Cert.ReferenceIdeal.Facts₀.bcast_S2_S1x2_1 (by decide)]
  rfl

end Cert.KernelIdeal.Hand

end
-- ==== Proof.RefOps.lean ====
/- The reference program's @main as a list of its 131 host operations, in order, a called function's operations in
   the place of its call, cut into twelve consecutive stretches; each stretch touches TensorCore references only. -/
import proofs.«124025_j30356828848616_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem
open Cert.ReferenceIdeal.Facts₀

variable {F : FTy → Type} [FloatOps F]

/-- 7 operations: the two rows of the edge list, and each followed by the self loops. -/
abbrev opsA : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_v4 (iotaInDim S100000 32 0),
    StableHlo.binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]
theorem opsA_sub : (opsA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub ..⟩

/-- 16 operations: the degrees and their inverse square roots. -/
abbrev opsB : List (HloOp τ sig (Elt F)) :=
  [ StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (StableHlo.TRef.of (T := ⟨S_, .f32⟩) main_cst_3) (StableHlo.TRef.of (T := ⟨S_, .f32⟩) main_call0_v0) id,
    StableHlo.TRef.unary (StableHlo.TRef.of (T := ⟨S_, .f32⟩) main_call0_v0) (StableHlo.TRef.of (T := ⟨S100000, .f32⟩) main_call0_v1) (broadcastInDim S100000 ![] bcast_S_S100000),
    StableHlo.TRef.ternary (StableHlo.TRef.of (T := ⟨S100000, .i1⟩) main_v12) (StableHlo.TRef.of (T := ⟨S100000, .f32⟩) main_v14) (StableHlo.TRef.of (T := ⟨S100000, .f32⟩) main_call0_v1) (StableHlo.TRef.of (T := ⟨S100000, .f32⟩) main_v15) select ]
theorem opsB_sub : (opsB : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩

/-- 19 operations: the weight of every pair. -/
abbrev opsC : List (HloOp τ sig (Elt F)) :=
  [ StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v5 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_4 (constantI S_ 32 100000#32),
    StableHlo.unary main_c_4 main_v18 (broadcastInDim S3300000 ![] bcast_S_S3300000 : (⟨S_, .i32⟩ : BufTy).Contents (Elt F) → (⟨S3300000, .i32⟩ : BufTy).Contents (Elt F)),
    StableHlo.binary main_v5 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v5 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_5 (constantI S_ 32 0#32),
    StableHlo.unary main_c_5 main_v23 (broadcastInDim S3300000 ![] bcast_S_S3300000 : (⟨S_, .i32⟩ : BufTy).Contents (Elt F) → (⟨S3300000, .i32⟩ : BufTy).Contents (Elt F)),
    StableHlo.binary main_v6 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_6 (constantI S_ 32 100000#32),
    StableHlo.unary main_c_6 main_v25 (broadcastInDim S3300000 ![] bcast_S_S3300000 : (⟨S_, .i32⟩ : BufTy).Contents (Elt F) → (⟨S3300000, .i32⟩ : BufTy).Contents (Elt F)),
    StableHlo.binary main_v6 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)) ]
theorem opsC_sub : (opsC : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- 1 operations: the first matrix product. -/
abbrev opsD : List (HloOp τ sig (Elt F)) :=
  [ StableHlo.binary main_arg0 main_arg2 main_v31 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]
theorem opsD_sub : (opsD : List (HloOp τ sig (Elt F))).Forall fun op => op.bufs ⊆ StableHlo.tcRefs τ sig :=
  StableHlo.binary_bufs_sub ..

/-- 16 operations: the first aggregation. -/
abbrev opsE : List (HloOp τ sig (Elt F)) :=
  [ StableHlo.nullary main_c_7 (constantI S_ 32 0#32),
    StableHlo.unary main_c_7 main_v32 (broadcastInDim S3300000 ![] bcast_S_S3300000 : (⟨S_, .i32⟩ : BufTy).Contents (Elt F) → (⟨S3300000, .i32⟩ : BufTy).Contents (Elt F)),
    StableHlo.binary main_v5 main_v32 main_v33 (cmpi .slt : (⟨S3300000, .i32⟩ : BufTy).Contents (Elt F) → (⟨S3300000, .i32⟩ : BufTy).Contents (Elt F) → (⟨S3300000, .i1⟩ : BufTy).Contents (Elt F)),
    StableHlo.nullary main_c_8 (constantI S_ 32 100000#32),
    StableHlo.unary main_c_8 main_v34 (broadcastInDim S3300000 ![] bcast_S_S3300000 : (⟨S_, .i32⟩ : BufTy).Contents (Elt F) → (⟨S3300000, .i32⟩ : BufTy).Contents (Elt F)),
    StableHlo.binary main_v5 main_v34 main_v35 (addi : (⟨S3300000, .i32⟩ : BufTy).Contents (Elt F) → (⟨S3300000, .i32⟩ : BufTy).Contents (Elt F) → (⟨S3300000, .i32⟩ : BufTy).Contents (Elt F)),
    StableHlo.ternary main_v33 main_v35 main_v5 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v36 main_v37 (broadcastInDim S3300000x1 ![0] bcast_S3300000_S3300000x1_0 : (⟨S3300000, .i32⟩ : BufTy).Contents (Elt F) → (⟨S3300000x1, .i32⟩ : BufTy).Contents (Elt F)),
    StableHlo.binary main_v31 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v30 main_v39 (broadcastInDim S3300000x1 ![0] bcast_S3300000_S3300000x1_0 : (⟨S3300000, .f32⟩ : BufTy).Contents (Elt F) → (⟨S3300000x1, .f32⟩ : BufTy).Contents (Elt F)),
    StableHlo.unary main_v39 main_v40 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v38 main_v40 main_v41 (mulf : (⟨S3300000x16, .f32⟩ : BufTy).Contents (Elt F) → (⟨S3300000x16, .f32⟩ : BufTy).Contents (Elt F) → (⟨S3300000x16, .f32⟩ : BufTy).Contents (Elt F)),
    StableHlo.nullary main_cst_9 (constant S_ .f32 0x00000000#32),
    StableHlo.unary main_cst_9 main_v42 (broadcastInDim S100000x16 ![] bcast_S_S100000x16 : (⟨S_, .f32⟩ : BufTy).Contents (Elt F) → (⟨S100000x16, .f32⟩ : BufTy).Contents (Elt F)),
    StableHlo.unary main_v6 main_v43 (broadcastInDim S3300000x1 ![0] bcast_S3300000_S3300000x1_0 : (⟨S3300000, .i32⟩ : BufTy).Contents (Elt F) → (⟨S3300000x1, .i32⟩ : BufTy).Contents (Elt F)),
    StableHlo.ternary main_v42 main_v43 main_v41 main_v44 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]
theorem opsE_sub : (opsE : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- 6 operations: the first bias and the relu. -/
abbrev opsF : List (HloOp τ sig (Elt F)) :=
  [ StableHlo.unary main_arg3 main_v45 (broadcastInDim S1x16 ![1] bcast_S16_S1x16_1 : (⟨S16, .f32⟩ : BufTy).Contents (Elt F) → (⟨S1x16, .f32⟩ : BufTy).Contents (Elt F)),
    StableHlo.unary main_v45 main_v46 (broadcastInDim S100000x16 ![0, 1] bcast_S1x16_S100000x16_0_1 : (⟨S1x16, .f32⟩ : BufTy).Contents (Elt F) → (⟨S100000x16, .f32⟩ : BufTy).Contents (Elt F)),
    StableHlo.binary main_v44 main_v46 main_v47 (addf : (⟨S100000x16, .f32⟩ : BufTy).Contents (Elt F) → (⟨S100000x16, .f32⟩ : BufTy).Contents (Elt F) → (⟨S100000x16, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S100000x16, .f32⟩) main_call1_v0) (broadcastInDim S100000x16 ![] bcast_S_S100000x16),
    StableHlo.TRef.binary (StableHlo.TRef.of (T := ⟨S100000x16, .f32⟩) main_v47) (StableHlo.TRef.of (T := ⟨S100000x16, .f32⟩) main_call1_v0) (StableHlo.TRef.of (T := ⟨S100000x16, .f32⟩) main_v48) maximumf ]
theorem opsF_sub : (opsF : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub ..⟩

/-- 3 operations: the self loops appended again. -/
abbrev opsA2 : List (HloOp τ sig (Elt F)) :=
  [ StableHlo.nullary main_v49 (iotaInDim S100000 32 0),
    StableHlo.binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]
theorem opsA2_sub : (opsA2 : List (HloOp τ sig (Elt F))).Forall fun op => op.bufs ⊆ StableHlo.tcRefs τ sig :=
  ⟨StableHlo.nullary_bufs_sub .., StableHlo.binary_bufs_sub .., StableHlo.binary_bufs_sub ..⟩

/-- 16 operations: the degrees and their inverse square roots again. -/
abbrev opsB2 : List (HloOp τ sig (Elt F)) :=
  [ StableHlo.nullary main_cst_10 (constant S_ .f32 0x3F800000#32),
    StableHlo.unary main_cst_10 main_v52 (broadcastInDim S3300000 ![] bcast_S_S3300000 : (⟨S_, .f32⟩ : BufTy).Contents (Elt F) → (⟨S3300000, .f32⟩ : BufTy).Contents (Elt F)),
    StableHlo.nullary main_cst_11 (constant S_ .f32 0x00000000#32),
    StableHlo.unary main_cst_11 main_v53 (broadcastInDim S100000 ![] bcast_S_S100000 : (⟨S_, .f32⟩ : BufTy).Contents (Elt F) → (⟨S100000, .f32⟩ : BufTy).Contents (Elt F)),
    StableHlo.unary main_v51 main_v54 (broadcastInDim S3300000x1 ![0] bcast_S3300000_S3300000x1_0 : (⟨S3300000, .i32⟩ : BufTy).Contents (Elt F) → (⟨S3300000x1, .i32⟩ : BufTy).Contents (Elt F)),
    StableHlo.ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_12 (constant S_ .f32 0x00000000#32),
    StableHlo.unary main_cst_12 main_v56 (broadcastInDim S100000 ![] bcast_S_S100000 : (⟨S_, .f32⟩ : BufTy).Contents (Elt F) → (⟨S100000, .f32⟩ : BufTy).Contents (Elt F)),
    StableHlo.binary main_v55 main_v56 main_v57 (cmpf .ogt : (⟨S100000, .f32⟩ : BufTy).Contents (Elt F) → (⟨S100000, .f32⟩ : BufTy).Contents (Elt F) → (⟨S100000, .i1⟩ : BufTy).Contents (Elt F)),
    StableHlo.nullary main_cst_13 (constant S_ .f32 0xBF000000#32),
    StableHlo.unary main_cst_13 main_v58 (broadcastInDim S100000 ![] bcast_S_S100000 : (⟨S_, .f32⟩ : BufTy).Contents (Elt F) → (⟨S100000, .f32⟩ : BufTy).Contents (Elt F)),
    StableHlo.binary main_v55 main_v58 main_v59 (Host.powf : (⟨S100000, .f32⟩ : BufTy).Contents (Elt F) → (⟨S100000, .f32⟩ : BufTy).Contents (Elt F) → (⟨S100000, .f32⟩ : BufTy).Contents (Elt F)),
    StableHlo.nullary main_cst_14 (constant S_ .f32 0x00000000#32),
    StableHlo.TRef.unary (StableHlo.TRef.of (T := ⟨S_, .f32⟩) main_cst_14) (StableHlo.TRef.of (T := ⟨S_, .f32⟩) main_call2_v0) id,
    StableHlo.TRef.unary (StableHlo.TRef.of (T := ⟨S_, .f32⟩) main_call2_v0) (StableHlo.TRef.of (T := ⟨S100000, .f32⟩) main_call2_v1) (broadcastInDim S100000 ![] bcast_S_S100000),
    StableHlo.TRef.ternary (StableHlo.TRef.of (T := ⟨S100000, .i1⟩) main_v57) (StableHlo.TRef.of (T := ⟨S100000, .f32⟩) main_v59) (StableHlo.TRef.of (T := ⟨S100000, .f32⟩) main_call2_v1) (StableHlo.TRef.of (T := ⟨S100000, .f32⟩) main_v60) select ]
theorem opsB2_sub : (opsB2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩

/-- 19 operations: the weight of every pair again. -/
abbrev opsC2 : List (HloOp τ sig (Elt F)) :=
  [ StableHlo.nullary main_c_15 (constantI S_ 32 0#32),
    StableHlo.unary main_c_15 main_v61 (broadcastInDim S3300000 ![] bcast_S_S3300000 : (⟨S_, .i32⟩ : BufTy).Contents (Elt F) → (⟨S3300000, .i32⟩ : BufTy).Contents (Elt F)),
    StableHlo.binary main_v50 main_v61 main_v62 (cmpi .slt : (⟨S3300000, .i32⟩ : BufTy).Contents (Elt F) → (⟨S3300000, .i32⟩ : BufTy).Contents (Elt F) → (⟨S3300000, .i1⟩ : BufTy).Contents (Elt F)),
    StableHlo.nullary main_c_16 (constantI S_ 32 100000#32),
    StableHlo.unary main_c_16 main_v63 (broadcastInDim S3300000 ![] bcast_S_S3300000 : (⟨S_, .i32⟩ : BufTy).Contents (Elt F) → (⟨S3300000, .i32⟩ : BufTy).Contents (Elt F)),
    StableHlo.binary main_v50 main_v63 main_v64 (addi : (⟨S3300000, .i32⟩ : BufTy).Contents (Elt F) → (⟨S3300000, .i32⟩ : BufTy).Contents (Elt F) → (⟨S3300000, .i32⟩ : BufTy).Contents (Elt F)),
    StableHlo.ternary main_v62 main_v64 main_v50 main_v65 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v65 main_v66 (broadcastInDim S3300000x1 ![0] bcast_S3300000_S3300000x1_0 : (⟨S3300000, .i32⟩ : BufTy).Contents (Elt F) → (⟨S3300000x1, .i32⟩ : BufTy).Contents (Elt F)),
    StableHlo.binary main_v60 main_v66 main_v67 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_17 (constantI S_ 32 0#32),
    StableHlo.unary main_c_17 main_v68 (broadcastInDim S3300000 ![] bcast_S_S3300000 : (⟨S_, .i32⟩ : BufTy).Contents (Elt F) → (⟨S3300000, .i32⟩ : BufTy).Contents (Elt F)),
    StableHlo.binary main_v51 main_v68 main_v69 (cmpi .slt : (⟨S3300000, .i32⟩ : BufTy).Contents (Elt F) → (⟨S3300000, .i32⟩ : BufTy).Contents (Elt F) → (⟨S3300000, .i1⟩ : BufTy).Contents (Elt F)),
    StableHlo.nullary main_c_18 (constantI S_ 32 100000#32),
    StableHlo.unary main_c_18 main_v70 (broadcastInDim S3300000 ![] bcast_S_S3300000 : (⟨S_, .i32⟩ : BufTy).Contents (Elt F) → (⟨S3300000, .i32⟩ : BufTy).Contents (Elt F)),
    StableHlo.binary main_v51 main_v70 main_v71 (addi : (⟨S3300000, .i32⟩ : BufTy).Contents (Elt F) → (⟨S3300000, .i32⟩ : BufTy).Contents (Elt F) → (⟨S3300000, .i32⟩ : BufTy).Contents (Elt F)),
    StableHlo.ternary main_v69 main_v71 main_v51 main_v72 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v72 main_v73 (broadcastInDim S3300000x1 ![0] bcast_S3300000_S3300000x1_0 : (⟨S3300000, .i32⟩ : BufTy).Contents (Elt F) → (⟨S3300000x1, .i32⟩ : BufTy).Contents (Elt F)),
    StableHlo.binary main_v60 main_v73 main_v74 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v67 main_v74 main_v75 (mulf : (⟨S3300000, .f32⟩ : BufTy).Contents (Elt F) → (⟨S3300000, .f32⟩ : BufTy).Contents (Elt F) → (⟨S3300000, .f32⟩ : BufTy).Contents (Elt F)) ]
theorem opsC2_sub : (opsC2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- 1 operations: the second matrix product. -/
abbrev opsG : List (HloOp τ sig (Elt F)) :=
  [ StableHlo.binary main_v48 main_arg4 main_v76 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)) ]
theorem opsG_sub : (opsG : List (HloOp τ sig (Elt F))).Forall fun op => op.bufs ⊆ StableHlo.tcRefs τ sig :=
  StableHlo.binary_bufs_sub ..

/-- 16 operations: the second aggregation. -/
abbrev opsH : List (HloOp τ sig (Elt F)) :=
  [ StableHlo.nullary main_c_19 (constantI S_ 32 0#32),
    StableHlo.unary main_c_19 main_v77 (broadcastInDim S3300000 ![] bcast_S_S3300000 : (⟨S_, .i32⟩ : BufTy).Contents (Elt F) → (⟨S3300000, .i32⟩ : BufTy).Contents (Elt F)),
    StableHlo.binary main_v50 main_v77 main_v78 (cmpi .slt : (⟨S3300000, .i32⟩ : BufTy).Contents (Elt F) → (⟨S3300000, .i32⟩ : BufTy).Contents (Elt F) → (⟨S3300000, .i1⟩ : BufTy).Contents (Elt F)),
    StableHlo.nullary main_c_20 (constantI S_ 32 100000#32),
    StableHlo.unary main_c_20 main_v79 (broadcastInDim S3300000 ![] bcast_S_S3300000 : (⟨S_, .i32⟩ : BufTy).Contents (Elt F) → (⟨S3300000, .i32⟩ : BufTy).Contents (Elt F)),
    StableHlo.binary main_v50 main_v79 main_v80 (addi : (⟨S3300000, .i32⟩ : BufTy).Contents (Elt F) → (⟨S3300000, .i32⟩ : BufTy).Contents (Elt F) → (⟨S3300000, .i32⟩ : BufTy).Contents (Elt F)),
    StableHlo.ternary main_v78 main_v80 main_v50 main_v81 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v81 main_v82 (broadcastInDim S3300000x1 ![0] bcast_S3300000_S3300000x1_0 : (⟨S3300000, .i32⟩ : BufTy).Contents (Elt F) → (⟨S3300000x1, .i32⟩ : BufTy).Contents (Elt F)),
    StableHlo.binary main_v76 main_v82 main_v83 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    StableHlo.unary main_v75 main_v84 (broadcastInDim S3300000x1 ![0] bcast_S3300000_S3300000x1_0 : (⟨S3300000, .f32⟩ : BufTy).Contents (Elt F) → (⟨S3300000x1, .f32⟩ : BufTy).Contents (Elt F)),
    StableHlo.unary main_v84 main_v85 (broadcastInDim S3300000x2 ![0, 1] bcast_S3300000x1_S3300000x2_0_1 : (⟨S3300000x1, .f32⟩ : BufTy).Contents (Elt F) → (⟨S3300000x2, .f32⟩ : BufTy).Contents (Elt F)),
    StableHlo.binary main_v83 main_v85 main_v86 (mulf : (⟨S3300000x2, .f32⟩ : BufTy).Contents (Elt F) → (⟨S3300000x2, .f32⟩ : BufTy).Contents (Elt F) → (⟨S3300000x2, .f32⟩ : BufTy).Contents (Elt F)),
    StableHlo.nullary main_cst_21 (constant S_ .f32 0x00000000#32),
    StableHlo.unary main_cst_21 main_v87 (broadcastInDim S100000x2 ![] bcast_S_S100000x2 : (⟨S_, .f32⟩ : BufTy).Contents (Elt F) → (⟨S100000x2, .f32⟩ : BufTy).Contents (Elt F)),
    StableHlo.unary main_v51 main_v88 (broadcastInDim S3300000x1 ![0] bcast_S3300000_S3300000x1_0 : (⟨S3300000, .i32⟩ : BufTy).Contents (Elt F) → (⟨S3300000x1, .i32⟩ : BufTy).Contents (Elt F)),
    StableHlo.ternary main_v87 main_v88 main_v86 main_v89 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]
theorem opsH_sub : (opsH : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- 11 operations: the second bias and the sigmoid. -/
abbrev opsI : List (HloOp τ sig (Elt F)) :=
  [ StableHlo.unary main_arg5 main_v90 (broadcastInDim S1x2 ![1] bcast_S2_S1x2_1 : (⟨S2, .f32⟩ : BufTy).Contents (Elt F) → (⟨S1x2, .f32⟩ : BufTy).Contents (Elt F)),
    StableHlo.unary main_v90 main_v91 (broadcastInDim S100000x2 ![0, 1] bcast_S1x2_S100000x2_0_1 : (⟨S1x2, .f32⟩ : BufTy).Contents (Elt F) → (⟨S100000x2, .f32⟩ : BufTy).Contents (Elt F)),
    StableHlo.binary main_v89 main_v91 main_v92 (addf : (⟨S100000x2, .f32⟩ : BufTy).Contents (Elt F) → (⟨S100000x2, .f32⟩ : BufTy).Contents (Elt F) → (⟨S100000x2, .f32⟩ : BufTy).Contents (Elt F)),
    StableHlo.unary main_v92 main_v93 (Host.negf : (⟨S100000x2, .f32⟩ : BufTy).Contents (Elt F) → (⟨S100000x2, .f32⟩ : BufTy).Contents (Elt F)),
    StableHlo.unary main_v93 main_v94 (Host.exp : (⟨S100000x2, .f32⟩ : BufTy).Contents (Elt F) → (⟨S100000x2, .f32⟩ : BufTy).Contents (Elt F)),
    StableHlo.nullary main_cst_22 (constant S_ .f32 0x3F800000#32),
    StableHlo.unary main_cst_22 main_v95 (broadcastInDim S100000x2 ![] bcast_S_S100000x2 : (⟨S_, .f32⟩ : BufTy).Contents (Elt F) → (⟨S100000x2, .f32⟩ : BufTy).Contents (Elt F)),
    StableHlo.binary main_v95 main_v94 main_v96 (addf : (⟨S100000x2, .f32⟩ : BufTy).Contents (Elt F) → (⟨S100000x2, .f32⟩ : BufTy).Contents (Elt F) → (⟨S100000x2, .f32⟩ : BufTy).Contents (Elt F)),
    StableHlo.nullary main_cst_23 (constant S_ .f32 0x3F800000#32),
    StableHlo.unary main_cst_23 main_v97 (broadcastInDim S100000x2 ![] bcast_S_S100000x2 : (⟨S_, .f32⟩ : BufTy).Contents (Elt F) → (⟨S100000x2, .f32⟩ : BufTy).Contents (Elt F)),
    StableHlo.binary main_v97 main_v96 main_v98 (Host.divf : (⟨S100000x2, .f32⟩ : BufTy).Contents (Elt F) → (⟨S100000x2, .f32⟩ : BufTy).Contents (Elt F) → (⟨S100000x2, .f32⟩ : BufTy).Contents (Elt F)) ]
theorem opsI_sub : (opsI : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

end Cert.ReferenceIdeal.Hand

end
-- ==== Proof.RefRun.lean ====
/-
  The reference program's run: @main is the sequence of its host operations, so every weakly fair execution
  terminates with every buffer at the fold of the operations' results over the launch contents.
-/
import proofs.«124025_j30356828848616_1_alg».proof.Proof.RefOps

noncomputable section

namespace Cert.ReferenceIdeal.Hand

open Cert.ReferenceIdeal Idealize.ShloMosaic Idealize.ShloMosaic.TcCoe Idealize.SL.Sem
open Cert.ReferenceIdeal.Facts₀

variable {F : FTy → Type} [FloatOps F]

/-- The twelve stretches, in order: the whole of @main. -/
abbrev ops : List (HloOp τ sig (Elt F)) :=
  opsA ++ (opsB ++ (opsC ++ (opsD ++ (opsE ++ (opsF ++ (opsA2 ++ (opsB2 ++ (opsC2 ++ (opsG ++ (opsH ++ opsI))))))))))

set_option maxRecDepth 8192 in
set_option maxHeartbeats 4000000 in
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig := by
  simp only [ops, List.forall_append]
  exact ⟨opsA_sub, opsB_sub, opsC_sub, opsD_sub, opsE_sub, opsF_sub, opsA2_sub, opsB2_sub, opsC2_sub, opsG_sub, opsH_sub, opsI_sub⟩

/-- No operation allocates a buffer. -/
theorem ops_fresh : ∀ op ∈ (ops : List (HloOp τ sig (Elt F))), op.fresh = ∅ := by
  rw [← List.forall_iff_forall_mem]
  simp only [ops, List.forall_append, opsA, opsB, opsC, opsD, opsE, opsF, opsA2, opsB2, opsC2, opsG, opsH, opsI, List.Forall]
  repeat' constructor

/-- Every weakly fair execution of @main terminates, and every buffer ends at the fold of the operations' results
    over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq scopedRefs_eq scopedSems_eq defs main (fun _ => ops) main_eq (fun _ => ops_sub) m ρ (fun _ => ops_fresh)

end Cert.ReferenceIdeal.Hand

end
-- ==== Proof.RefValue.lean ====
/-
  The reference program's result as the network `Cert.Gcn.gcn` of the six arguments.  Each stretch of host
  operations, from ANY buffer contents `W`, leaves in its result buffer one stage of the network applied to the
  contents of the buffers it reads, and leaves every buffer it does not write as it was; the whole of @main is the
  stretches one after the other.  The second layer recomputes the pair lists, the degrees and the pair weights in
  fresh buffers: the same functions of the same edge list.
-/
import proofs.«124025_j30356828848616_1_alg».proof.Proof.RefRun
import proofs.«124025_j30356828848616_1_alg».proof.Proof.Stages
import proofs.«124025_j30356828848616_1_alg».proof.Proof.Rd
import Idealize.ShloMosaic.Lib.Pipeline.Frame

noncomputable section

namespace Cert.ReferenceIdeal.Hand

open Cert.ReferenceIdeal Idealize.ShloMosaic Idealize.ShloMosaic.TcCoe Idealize.SL.Sem
open Cert.ReferenceIdeal.Facts₀ Cert.Gcn

variable {F : FTy → Type} [FloatOps F] (W : Valuation τ sig (Elt F))

/-! ## What each stretch writes, and that it keeps every other buffer -/

/-- The buffers stretch A writes. -/
abbrev wA : List (Ref sig .tc) := [main_v0, main_v1, main_v2, main_v3, main_v4, main_v5, main_v6]
theorem keepA {r : Ref sig .tc} (hr : r ∉ wA) : rd (StableHlo.after opsA W) r = rd W r :=
  StableHlo.after_of_writes_sub (W := wA) opsA W (by
    simp only [List.Forall]
    repeat' apply And.intro
    all_goals exact Finset.singleton_subset_iff.mpr (List.mem_toFinset.mpr (List.mem_map_of_mem (f := Proc.devRef (τ := τ) .tc) (by decide)))) hr

/-- The buffers stretch B writes. -/
abbrev wB : List (Ref sig .tc) := [main_cst, main_v7, main_cst_0, main_v8, main_v9, main_v10, main_cst_1, main_v11, main_v12, main_cst_2, main_v13, main_v14, main_cst_3, main_call0_v0, main_call0_v1, main_v15]
theorem keepB {r : Ref sig .tc} (hr : r ∉ wB) : rd (StableHlo.after opsB W) r = rd W r :=
  StableHlo.after_of_writes_sub (W := wB) opsB W (by
    simp only [List.Forall]
    repeat' apply And.intro
    all_goals exact Finset.singleton_subset_iff.mpr (List.mem_toFinset.mpr (List.mem_map_of_mem (f := Proc.devRef (τ := τ) .tc) (by decide)))) hr

/-- The buffers stretch C writes. -/
abbrev wC : List (Ref sig .tc) := [main_c, main_v16, main_v17, main_c_4, main_v18, main_v19, main_v20, main_v21, main_v22, main_c_5, main_v23, main_v24, main_c_6, main_v25, main_v26, main_v27, main_v28, main_v29, main_v30]
theorem keepC {r : Ref sig .tc} (hr : r ∉ wC) : rd (StableHlo.after opsC W) r = rd W r :=
  StableHlo.after_of_writes_sub (W := wC) opsC W (by
    simp only [List.Forall]
    repeat' apply And.intro
    all_goals exact Finset.singleton_subset_iff.mpr (List.mem_toFinset.mpr (List.mem_map_of_mem (f := Proc.devRef (τ := τ) .tc) (by decide)))) hr

/-- The buffers stretch D writes. -/
abbrev wD : List (Ref sig .tc) := [main_v31]
theorem keepD {r : Ref sig .tc} (hr : r ∉ wD) : rd (StableHlo.after opsD W) r = rd W r :=
  StableHlo.after_of_writes_sub (W := wD) opsD W (by
    simp only [List.Forall]
    repeat' apply And.intro
    all_goals exact Finset.singleton_subset_iff.mpr (List.mem_toFinset.mpr (List.mem_map_of_mem (f := Proc.devRef (τ := τ) .tc) (by decide)))) hr

/-- The buffers stretch E writes. -/
abbrev wE : List (Ref sig .tc) := [main_c_7, main_v32, main_v33, main_c_8, main_v34, main_v35, main_v36, main_v37, main_v38, main_v39, main_v40, main_v41, main_cst_9, main_v42, main_v43, main_v44]
theorem keepE {r : Ref sig .tc} (hr : r ∉ wE) : rd (StableHlo.after opsE W) r = rd W r :=
  StableHlo.after_of_writes_sub (W := wE) opsE W (by
    simp only [List.Forall]
    repeat' apply And.intro
    all_goals exact Finset.singleton_subset_iff.mpr (List.mem_toFinset.mpr (List.mem_map_of_mem (f := Proc.devRef (τ := τ) .tc) (by decide)))) hr

/-- The buffers stretch F writes. -/
abbrev wF : List (Ref sig .tc) := [main_v45, main_v46, main_v47, main_call1_cst, main_call1_v0, main_v48]
theorem keepF {r : Ref sig .tc} (hr : r ∉ wF) : rd (StableHlo.after opsF W) r = rd W r :=
  StableHlo.after_of_writes_sub (W := wF) opsF W (by
    simp only [List.Forall]
    repeat' apply And.intro
    all_goals exact Finset.singleton_subset_iff.mpr (List.mem_toFinset.mpr (List.mem_map_of_mem (f := Proc.devRef (τ := τ) .tc) (by decide)))) hr

/-- The buffers stretch A2 writes. -/
abbrev wA2 : List (Ref sig .tc) := [main_v49, main_v50, main_v51]
theorem keepA2 {r : Ref sig .tc} (hr : r ∉ wA2) : rd (StableHlo.after opsA2 W) r = rd W r :=
  StableHlo.after_of_writes_sub (W := wA2) opsA2 W (by
    simp only [List.Forall]
    repeat' apply And.intro
    all_goals exact Finset.singleton_subset_iff.mpr (List.mem_toFinset.mpr (List.mem_map_of_mem (f := Proc.devRef (τ := τ) .tc) (by decide)))) hr

/-- The buffers stretch B2 writes. -/
abbrev wB2 : List (Ref sig .tc) := [main_cst_10, main_v52, main_cst_11, main_v53, main_v54, main_v55, main_cst_12, main_v56, main_v57, main_cst_13, main_v58, main_v59, main_cst_14, main_call2_v0, main_call2_v1, main_v60]
theorem keepB2 {r : Ref sig .tc} (hr : r ∉ wB2) : rd (StableHlo.after opsB2 W) r = rd W r :=
  StableHlo.after_of_writes_sub (W := wB2) opsB2 W (by
    simp only [List.Forall]
    repeat' apply And.intro
    all_goals exact Finset.singleton_subset_iff.mpr (List.mem_toFinset.mpr (List.mem_map_of_mem (f := Proc.devRef (τ := τ) .tc) (by decide)))) hr

/-- The buffers stretch C2 writes. -/
abbrev wC2 : List (Ref sig .tc) := [main_c_15, main_v61, main_v62, main_c_16, main_v63, main_v64, main_v65, main_v66, main_v67, main_c_17, main_v68, main_v69, main_c_18, main_v70, main_v71, main_v72, main_v73, main_v74, main_v75]
theorem keepC2 {r : Ref sig .tc} (hr : r ∉ wC2) : rd (StableHlo.after opsC2 W) r = rd W r :=
  StableHlo.after_of_writes_sub (W := wC2) opsC2 W (by
    simp only [List.Forall]
    repeat' apply And.intro
    all_goals exact Finset.singleton_subset_iff.mpr (List.mem_toFinset.mpr (List.mem_map_of_mem (f := Proc.devRef (τ := τ) .tc) (by decide)))) hr

/-- The buffers stretch G writes. -/
abbrev wG : List (Ref sig .tc) := [main_v76]
theorem keepG {r : Ref sig .tc} (hr : r ∉ wG) : rd (StableHlo.after opsG W) r = rd W r :=
  StableHlo.after_of_writes_sub (W := wG) opsG W (by
    simp only [List.Forall]
    repeat' apply And.intro
    all_goals exact Finset.singleton_subset_iff.mpr (List.mem_toFinset.mpr (List.mem_map_of_mem (f := Proc.devRef (τ := τ) .tc) (by decide)))) hr

/-- The buffers stretch H writes. -/
abbrev wH : List (Ref sig .tc) := [main_c_19, main_v77, main_v78, main_c_20, main_v79, main_v80, main_v81, main_v82, main_v83, main_v84, main_v85, main_v86, main_cst_21, main_v87, main_v88, main_v89]
theorem keepH {r : Ref sig .tc} (hr : r ∉ wH) : rd (StableHlo.after opsH W) r = rd W r :=
  StableHlo.after_of_writes_sub (W := wH) opsH W (by
    simp only [List.Forall]
    repeat' apply And.intro
    all_goals exact Finset.singleton_subset_iff.mpr (List.mem_toFinset.mpr (List.mem_map_of_mem (f := Proc.devRef (τ := τ) .tc) (by decide)))) hr

/-- The buffers stretch I writes. -/
abbrev wI : List (Ref sig .tc) := [main_v90, main_v91, main_v92, main_v93, main_v94, main_cst_22, main_v95, main_v96, main_cst_23, main_v97, main_v98]
theorem keepI {r : Ref sig .tc} (hr : r ∉ wI) : rd (StableHlo.after opsI W) r = rd W r :=
  StableHlo.after_of_writes_sub (W := wI) opsI W (by
    simp only [List.Forall]
    repeat' apply And.intro
    all_goals exact Finset.singleton_subset_iff.mpr (List.mem_toFinset.mpr (List.mem_map_of_mem (f := Proc.devRef (τ := τ) .tc) (by decide)))) hr

/-! ## What each stretch computes -/

set_option maxHeartbeats 2000000 in
theorem A_v1 : rd (StableHlo.after opsA W) main_v1 = edgeRow 0 slices_S2x3200000_S1x3200000_0_0 (rd W main_arg1) := by
  unfold rd; after_results_simp; rfl
set_option maxHeartbeats 2000000 in
theorem A_v3 : rd (StableHlo.after opsA W) main_v3 = edgeRow 1 slices_S2x3200000_S1x3200000_1_0 (rd W main_arg1) := by
  unfold rd; after_results_simp; rfl
set_option maxHeartbeats 2000000 in
theorem A_v5 : rd (StableHlo.after opsA W) main_v5 = srcAll (rd W main_arg1) := by
  unfold rd; after_results_simp; rfl
set_option maxHeartbeats 2000000 in
theorem A_v6 : rd (StableHlo.after opsA W) main_v6 = dstAll (rd W main_arg1) := by
  unfold rd; after_results_simp; rfl
set_option maxHeartbeats 2000000 in
theorem B_v15 : rd (StableHlo.after opsB W) main_v15 = degInvSqrt (rd W main_v6) := by
  unfold rd; after_results_simp; rfl
set_option maxHeartbeats 2000000 in
theorem C_v30 : rd (StableHlo.after opsC W) main_v30 = pairWeight (rd W main_v15) (rd W main_v5) (rd W main_v6) := by
  unfold rd; after_results_simp; rfl
set_option maxHeartbeats 2000000 in
theorem D_v31 : rd (StableHlo.after opsD W) main_v31 = project16 (rd W main_arg0) (rd W main_arg2) := by
  unfold rd; after_results_simp; rfl
set_option maxHeartbeats 2000000 in
theorem E_v44 : rd (StableHlo.after opsE W) main_v44 = aggregate16 (rd W main_v31) (rd W main_v5) (rd W main_v6) (rd W main_v30) := by
  unfold rd; after_results_simp; rfl
set_option maxHeartbeats 2000000 in
theorem F_v48 : rd (StableHlo.after opsF W) main_v48 = biasRelu (rd W main_v44) (rd W main_arg3) := by
  unfold rd; after_results_simp; rfl
set_option maxHeartbeats 2000000 in
theorem A2_v50 : rd (StableHlo.after opsA2 W) main_v50 = withLoops (rd W main_v1) := by
  unfold rd; after_results_simp; rfl
set_option maxHeartbeats 2000000 in
theorem A2_v51 : rd (StableHlo.after opsA2 W) main_v51 = withLoops (rd W main_v3) := by
  unfold rd; after_results_simp; rfl
set_option maxHeartbeats 2000000 in
theorem B2_v60 : rd (StableHlo.after opsB2 W) main_v60 = degInvSqrt (rd W main_v51) := by
  unfold rd; after_results_simp; rfl
set_option maxHeartbeats 2000000 in
theorem C2_v75 : rd (StableHlo.after opsC2 W) main_v75 = pairWeight (rd W main_v60) (rd W main_v50) (rd W main_v51) := by
  unfold rd; after_results_simp; rfl
set_option maxHeartbeats 2000000 in
theorem G_v76 : rd (StableHlo.after opsG W) main_v76 = project2 (rd W main_v48) (rd W main_arg4) := by
  unfold rd; after_results_simp; rfl
set_option maxHeartbeats 2000000 in
theorem H_v89 : rd (StableHlo.after opsH W) main_v89 = aggregate2 (rd W main_v76) (rd W main_v50) (rd W main_v51) (rd W main_v75) := by
  unfold rd; after_results_simp; rfl
set_option maxHeartbeats 2000000 in
theorem I_v98 : rd (StableHlo.after opsI W) main_v98 = biasSigmoid (rd W main_v89) (rd W main_arg5) := by
  unfold rd; after_results_simp; rfl

/-! ## The whole of @main -/

/-- From any contents, @main's result buffer ends at the network of the six argument buffers' contents. -/
theorem value : rd (StableHlo.after ops W) main_v98
    = gcn (rd W main_arg0) (rd W main_arg1) (rd W main_arg2) (rd W main_arg3) (rd W main_arg4) (rd W main_arg5) := by
  simp only [ops, StableHlo.after_append]
  simp (disch := decide) only [I_v98, H_v89, G_v76, C2_v75, B2_v60, A2_v50, A2_v51, F_v48, E_v44, D_v31, C_v30, B_v15,
    A_v1, A_v3, A_v5, A_v6, keepA, keepB, keepC, keepD, keepE, keepF, keepA2, keepB2, keepC2, keepG, keepH, keepI]
  rfl

/-- From any contents, @main leaves an argument buffer as it was. -/
theorem kept {r : Ref sig .tc} (hr : r ∈ [main_arg0, main_arg1, main_arg2, main_arg3, main_arg4, main_arg5]) :
    rd (StableHlo.after ops W) r = rd W r := by
  simp only [ops, StableHlo.after_append]
  simp only [List.mem_cons, List.mem_singleton, List.not_mem_nil, or_false] at hr
  rcases hr with rfl | rfl | rfl | rfl | rfl | rfl <;>
    simp (disch := decide) only [keepA, keepB, keepC, keepD, keepE, keepF, keepA2, keepB2, keepC2, keepG, keepH, keepI]

end Cert.ReferenceIdeal.Hand

end
-- ==== Proof.lean ====
/-
  The certificate: the kernel program (a two-layer graph convolution whose matrix products and
  bias-and-activation steps are four gridded kernel regions, the gather, the scaling and the scatter-add left to
  host operations) against the plain reference.

  * The three frames.  The two kernel programs' frames are the generated ones.  The reference has no kernel: its
    @main is a sequence of host operations, which always runs to the end and writes no argument buffer.
  * The idealization rewrote nothing, so there is nothing to preserve.
  * The algebraic claim.  At the ideal values both programs end with the result array at ONE function of the six
    arguments, `Cert.Gcn.gcn`: the reference by reading its host operations stretch by stretch, the kernel by
    following the buffer contents through its host stretches and its four regions, each region's output array
    being, over the extended reals, the very host operation the reference applies (a tiled matrix product into a
    zero accumulator is the whole matrix product; a bias row added block by block with a maximum or a logistic is
    the whole-array addition with the maximum, or with 1 / (1 + exp (-x))).  No finiteness of the inputs is used:
    only the order of finite sums changes between the two programs, and a sum of extended reals does not depend on it.
-/
import proofs.«124025_j30356828848616_1_alg».proof.Defs
import proofs.«124025_j30356828848616_1_alg».proof.Proof.Gen.Kernel
import proofs.«124025_j30356828848616_1_alg».proof.Proof.Gen.Kernel.Skeleton
import proofs.«124025_j30356828848616_1_alg».proof.Proof.Gen.Kernel.Launch
import proofs.«124025_j30356828848616_1_alg».proof.Proof.Gen.Kernel.Points
import proofs.«124025_j30356828848616_1_alg».proof.Proof.Gen.Kernel.Frame
import proofs.«124025_j30356828848616_1_alg».proof.Proof.Gen.KernelIdeal
import proofs.«124025_j30356828848616_1_alg».proof.Proof.Gen.KernelIdeal.Skeleton
import proofs.«124025_j30356828848616_1_alg».proof.Proof.Gen.KernelIdeal.Launch
import proofs.«124025_j30356828848616_1_alg».proof.Proof.Gen.KernelIdeal.Points
import proofs.«124025_j30356828848616_1_alg».proof.Proof.Gen.KernelIdeal.Frame
import proofs.«124025_j30356828848616_1_alg».proof.Proof.Gen.ReferenceIdeal
import proofs.«124025_j30356828848616_1_alg».proof.Proof.Gen.Pre_finite_inputs
import proofs.«124025_j30356828848616_1_alg».proof.Proof.KValue
import proofs.«124025_j30356828848616_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's @main is a sequence of host operations none of which writes an argument buffer. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.kept _ (by decide)),
     (h c Cert.ReferenceIdeal.main_arg1).trans (Cert.ReferenceIdeal.Hand.kept _ (by decide)),
     (h c Cert.ReferenceIdeal.main_arg2).trans (Cert.ReferenceIdeal.Hand.kept _ (by decide)),
     (h c Cert.ReferenceIdeal.main_arg3).trans (Cert.ReferenceIdeal.Hand.kept _ (by decide)),
     (h c Cert.ReferenceIdeal.main_arg4).trans (Cert.ReferenceIdeal.Hand.kept _ (by decide)),
     (h c Cert.ReferenceIdeal.main_arg5).trans (Cert.ReferenceIdeal.Hand.kept _ (by decide))⟩)
    (Cert.ReferenceIdeal.Hand.run_after (F := Ideal) m ρ)

/-- The ideal pass rewrote no operation. -/
theorem preserves : Cert.preserves_Kernel_KernelIdeal := trivial

/-- Both programs end with the result array at the network `Cert.Gcn.gcn` of the arguments, which agree. -/
theorem algebraic : Cert.algebraic_KernelIdeal_ReferenceIdeal := by
  intro m ρ m' ρ' _ hagree
  refine ⟨fun c => Cert.Gcn.gcn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_value m ρ c), (h c).2⟩)
      (Cert.KernelIdeal.Hand.run_result (F := Ideal) m ρ)
  · refine (θ_run Cert.ReferenceIdeal.defs _ _).mono (fun _ h c => ?_) (Cert.ReferenceIdeal.Hand.run_after (F := Ideal) m' ρ')
    obtain ⟨e0, e1, e2, e3, e4, e5⟩ := hagree c
    refine ⟨(h c Cert.ReferenceIdeal.main_v98).trans ((Cert.ReferenceIdeal.Hand.value _).trans ?_),
      (h c Cert.ReferenceIdeal.main_arg0).trans (Cert.ReferenceIdeal.Hand.kept _ (by decide)),
      (h c Cert.ReferenceIdeal.main_arg1).trans (Cert.ReferenceIdeal.Hand.kept _ (by decide)),
      (h c Cert.ReferenceIdeal.main_arg2).trans (Cert.ReferenceIdeal.Hand.kept _ (by decide)),
      (h c Cert.ReferenceIdeal.main_arg3).trans (Cert.ReferenceIdeal.Hand.kept _ (by decide)),
      (h c Cert.ReferenceIdeal.main_arg4).trans (Cert.ReferenceIdeal.Hand.kept _ (by decide)),
      (h c Cert.ReferenceIdeal.main_arg5).trans (Cert.ReferenceIdeal.Hand.kept _ (by decide))⟩
    show Cert.Gcn.gcn (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
